-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x131072x128 : Shape := ⟨3, ![8, 131072, 128]⟩
abbrev S8x131072 : Shape := ⟨2, ![8, 131072]⟩
abbrev S_ : Shape := ⟨0, ![]⟩

class Facts : Prop where
  bcast_S_S8x131072x128 : S_.BroadcastsInDim S8x131072x128 (![] : Fin 0 → Fin S8x131072x128.rank)
  reducesTo_S8x131072x128_S_d0_1_2 : S8x131072x128.ReducesTo [0, 1, 2] S_
  h_S_ : 0 < S_.numel

variable [Facts]

def fn {F : FTy → Type} [FloatOps F] (main_arg0 : FVec F S8x131072x128 .f32) (main_arg1 : IVec S8x131072 32) : IVec S_ 1 :=
  let main_v0 : FVec F S8x131072x128 .f32 := Host.absf main_arg0
  let main_cst : FVec F S_ .f32 := constant S_ .f32 0x7F800000#32
  let main_v1 : FVec F S8x131072x128 .f32 := broadcastInDim S8x131072x128 ![] bcast_S_S8x131072x128 main_cst
  let main_v2 : IVec S8x131072x128 1 := cmpf .olt main_v0 main_v1
  let main_c : IVec S_ 1 := constantI S_ 1 1#1
  let main_v3 : IVec S_ 1 := (fun x v => Host.reduce IntOp.andi x v reducesTo_S8x131072x128_S_d0_1_2 h_S_) main_v2 main_c
  main_v3
-- ==== Kernel.lean ====
abbrev S8x131072x128 : Shape := ⟨3, ![8, 131072, 128]⟩
abbrev S8x131072 : Shape := ⟨2, ![8, 131072]⟩
abbrev S2x1x128 : Shape := ⟨3, ![2, 1, 128]⟩
abbrev S8x2048x128 : Shape := ⟨3, ![8, 2048, 128]⟩
abbrev S8x2048 : Shape := ⟨2, ![8, 2048]⟩
abbrev S1x1x128 : Shape := ⟨3, ![1, 1, 128]⟩
abbrev S1x1 : Shape := ⟨2, ![1, 1]⟩
abbrev S1x2048x128 : Shape := ⟨3, ![1, 2048, 128]⟩
abbrev S2048x128 : Shape := ⟨2, ![2048, 128]⟩
abbrev S7x2048x128 : Shape := ⟨3, ![7, 2048, 128]⟩
abbrev S7x2048 : Shape := ⟨2, ![7, 2048]⟩
abbrev S1x2048 : Shape := ⟨2, ![1, 2048]⟩
abbrev S2048 : Shape := ⟨1, ![2048]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S8x131072x128, .f32⟩
  | .hbm, ⟨1, _⟩ => ⟨S8x131072, .i32⟩
  | .hbm, ⟨2, _⟩ => ⟨S2x1x128, .f32⟩
  | .hbm, ⟨3, _⟩ => ⟨S2x1x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8x2048x128, .f32⟩
  | .local _ .vmem, ⟨1, _⟩ => ⟨S8x2048x128, .f32⟩
  | .local _ .vmem, ⟨2, _⟩ => ⟨S8x2048, .i32⟩
  | .local _ .vmem, ⟨3, _⟩ => ⟨S8x2048, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1, .f32⟩
  | .local _ .vmem, ⟨9, _⟩ => ⟨S1x1, .f32⟩
  | _, _ => ⟨S8x131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v71 : BitVec 1 := Scalar.cmpi .eq arg1 c31_i32
  let v72 : BitVec 32 := Scalar.extui v71
  let c0_i32_29 : BitVec 32 := 0#32
  let v73 : BitVec 1 := Scalar.cmpi .ne v72 c0_i32_29
  v73

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x2048x128_S8x2048x128_0_0_0 : ∀ a, (![0, 0, 0] : Fin 3 → Nat) a + S8x2048x128.size a ≤ S8x2048x128.size a
  h_S8x2048x128 : 0 < S8x2048x128.numel
  inb_S8x2048_S8x2048_0_0 : ∀ a, (![0, 0] : Fin 2 → Nat) a + S8x2048.size a ≤ S8x2048.size a
  h_S8x2048 : 0 < S8x2048.numel
  slices_S8x2048x128_o0_0_0_S1x2048x128 : S8x2048x128.Slices ![0, 0, 0] S1x2048x128
  shapeCasts_S1x2048x128_S2048x128 : S1x2048x128.ShapeCasts S2048x128
  slices_S8x2048x128_o1_0_0_S7x2048x128 : S8x2048x128.Slices ![1, 0, 0] S7x2048x128
  shapeCasts_S2048x128_S1x2048x128 : S2048x128.ShapeCasts S1x2048x128
  broadcasts_S1x2048x128_S7x2048x128 : S1x2048x128.Broadcasts S7x2048x128
  reduces_S7x2048x128_S7x2048 : S7x2048x128.Reduces [2] S7x2048
  slices_S8x2048_o0_0_S1x2048 : S8x2048.Slices ![0, 0] S1x2048
  shapeCasts_S1x2048_S2048 : S1x2048.ShapeCasts S2048
  slices_S8x2048_o1_0_S7x2048 : S8x2048.Slices ![1, 0] S7x2048
  shapeCasts_S2048_S1x2048 : S2048.ShapeCasts S1x2048
  broadcasts_S1x2048_S7x2048 : S1x2048.Broadcasts S7x2048
  natLt_1_32 : 1 < 32
  reduces_S7x2048_S2048 : S7x2048.Reduces [0] S2048
  reduces_S1x2048_S1 : S1x2048.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x128.size a ≤ S8x131072x128.size a
  hwx0_0 : ∀ i : grid0.Coords, EltTy.bits .f32 = 32 ∨ (Rect.block (s := S8x131072x128) S8x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x131072.size a
  hwx0_1 : ∀ i : grid0.Coords, EltTy.bits .i32 = 32 ∨ (Rect.block (s := S8x131072) S8x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_arg0) S8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x131072x128 : Shape := ⟨3, ![8, 131072, 128]⟩
abbrev S8x131072 : Shape := ⟨2, ![8, 131072]⟩
abbrev S1x131072x128 : Shape := ⟨3, ![1, 131072, 128]⟩
abbrev S131072x128 : Shape := ⟨2, ![131072, 128]⟩
abbrev S7x131072x128 : Shape := ⟨3, ![7, 131072, 128]⟩
abbrev S_ : Shape := ⟨0, ![]⟩
abbrev S7x131072 : Shape := ⟨2, ![7, 131072]⟩
abbrev S1x131072 : Shape := ⟨2, ![1, 131072]⟩
abbrev S131072 : Shape := ⟨1, ![131072]⟩

abbrev nBuf : Space → Nat
  | .hbm => 65
  | .vmem => 0
  | .smem => 0
  | _ => 0

abbrev bufTy : (tb : Table) → Fin (tcTables nBuf tb) → BufTy
  | .hbm, ⟨0, _⟩ => ⟨S8x131072x128, .f32⟩
  | .hbm, ⟨1, _⟩ => ⟨S8x131072, .i32⟩
  | .hbm, ⟨2, _⟩ => ⟨S1x131072x128, .f32⟩
  | .hbm, ⟨3, _⟩ => ⟨S131072x128, .f32⟩
  | .hbm, ⟨4, _⟩ => ⟨S1x131072x128, .f32⟩
  | .hbm, ⟨5, _⟩ => ⟨S7x131072x128, .f32⟩
  | .hbm, ⟨6, _⟩ => ⟨S7x131072x128, .f32⟩
  | .hbm, ⟨7, _⟩ => ⟨S7x131072x128, .f32⟩
  | .hbm, ⟨8, _⟩ => ⟨S7x131072x128, .f32⟩
  | .hbm, ⟨9, _⟩ => ⟨S_, .f32⟩
  | .hbm, ⟨10, _⟩ => ⟨S7x131072, .f32⟩
  | .hbm, ⟨11, _⟩ => ⟨S7x131072, .i32⟩
  | .hbm, ⟨12, _⟩ => ⟨S1x131072, .i32⟩
  | .hbm, ⟨13, _⟩ => ⟨S131072, .i32⟩
  | .hbm, ⟨14, _⟩ => ⟨S1x131072, .i32⟩
  | .hbm, ⟨15, _⟩ => ⟨S7x131072, .i32⟩
  | .hbm, ⟨16, _⟩ => ⟨S7x131072, .i1⟩
  | .hbm, ⟨17, _⟩ => ⟨S_, .i1⟩
  | .hbm, ⟨18, _⟩ => ⟨S131072, .i1⟩
  | .hbm, ⟨19, _⟩ => ⟨S_, .f32⟩
  | .hbm, ⟨20, _⟩ => ⟨S_, .f32⟩
  | .hbm, ⟨21, _⟩ => ⟨S7x131072, .f32⟩
  | .hbm, ⟨22, _⟩ => ⟨S7x131072, .f32⟩
  | .hbm, ⟨23, _⟩ => ⟨S_, .f32⟩
  | .hbm, ⟨24, _⟩ => ⟨S131072, .f32⟩
  | .hbm, ⟨25, _⟩ => ⟨S_, .f32⟩
  | .hbm, ⟨26, _⟩ => ⟨S_, .f32⟩
  | .hbm, ⟨27, _⟩ => ⟨S131072, .f32⟩
  | .hbm, ⟨28, _⟩ => ⟨S131072, .f32⟩
  | .hbm, ⟨29, _⟩ => ⟨S_, .f32⟩
  | .hbm, ⟨30, _⟩ => ⟨S_, .f32⟩
  | .hbm, ⟨31, _⟩ => ⟨S7x131072, .f32⟩
  | .hbm, ⟨32, _⟩ => ⟨S7x131072, .f32⟩
  | .hbm, ⟨33, _⟩ => ⟨S_, .f32⟩
  | .hbm, ⟨34, _⟩ => ⟨S131072, .f32⟩
  | .hbm, ⟨35, _⟩ => ⟨S1x131072, .f32⟩
  | .hbm, ⟨36, _⟩ => ⟨S7x131072, .f32⟩
  | .hbm, ⟨37, _⟩ => ⟨S7x131072, .f32⟩
  | .hbm, ⟨38, _⟩ => ⟨S7x131072, .i1⟩
  | .hbm, ⟨39, _⟩ => ⟨S_, .f32⟩
  | .hbm, ⟨40, _⟩ => ⟨S7x131072, .f32⟩
  | .hbm, ⟨41, _⟩ => ⟨S7x131072, .i1⟩
  | .hbm, ⟨42, _⟩ => ⟨S7x131072, .i1⟩
  | .hbm, ⟨43, _⟩ => ⟨S_, .f32⟩
  | .hbm, ⟨44, _⟩ => ⟨S_, .f32⟩
  | .hbm, ⟨45, _⟩ => ⟨S7x131072, .f32⟩
  | .hbm, ⟨46, _⟩ => ⟨S7x131072, .f32⟩
  | .hbm, ⟨47, _⟩ => ⟨S_, .f32⟩
  | .hbm, ⟨48, _⟩ => ⟨S131072, .f32⟩
  | .hbm, ⟨49, _⟩ => ⟨S_, .i1⟩
  | .hbm, ⟨50, _⟩ => ⟨S131072, .i1⟩
  | .hbm, ⟨51, _⟩ => ⟨S131072, .i1⟩
  | .hbm, ⟨52, _⟩ => ⟨S131072, .f32⟩
  | .hbm, ⟨53, _⟩ => ⟨S131072, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S131072, .f32⟩
  | .hbm, ⟨61, _⟩ => ⟨S131072, .f32⟩
  | .hbm, ⟨62, _⟩ => ⟨S_, .f32⟩
  | .hbm, ⟨63, _⟩ => ⟨S_, .f32⟩
  | .hbm, ⟨64, _⟩ => ⟨S_, .f32⟩
  | _, _ => ⟨S8x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_call3_v0 : Ref sig .tc := ⟨.hbm, 44, rfl⟩
abbrev main_call3_v1 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_cst_10 : Ref sig .tc := ⟨.hbm, 56, rfl⟩
abbrev main_v34 : Ref sig .tc := ⟨.hbm, 57, rfl⟩
abbrev main_cst_11 : Ref sig .tc := ⟨.hbm, 58, rfl⟩
abbrev main_call4_v0 : Ref sig .tc := ⟨.hbm, 59, rfl⟩
abbrev main_call4_v1 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_v37 : Ref sig .tc := ⟨.hbm, 64, rfl⟩

abbrev nD : Nat := 1
abbrev τ : Topo := Topo.v7x

variable {F : FTy → Type} [FloatOps F]

class Facts₀ : Prop where
  slices_S8x131072x128_S1x131072x128_0_0_0 : S8x131072x128.Slices ![0, 0, 0] S1x131072x128
  shapeCasts_S1x131072x128_S131072x128 : S1x131072x128.ShapeCasts S131072x128
  bcast_S131072x128_S1x131072x128_1_2 : S131072x128.BroadcastsInDim S1x131072x128 (![1, 2] : Fin 2 → Fin S1x131072x128.rank)
  slices_S8x131072x128_S7x131072x128_1_0_0 : S8x131072x128.Slices ![1, 0, 0] S7x131072x128
  bcast_S1x131072x128_S7x131072x128_0_1_2 : S1x131072x128.BroadcastsInDim S7x131072x128 (![0, 1, 2] : Fin 3 → Fin S7x131072x128.rank)
  reducesTo_S7x131072x128_S7x131072_d2 : S7x131072x128.ReducesTo [2] S7x131072
  h_S_ : 0 < S_.numel
  slices_S8x131072_S7x131072_1_0 : S8x131072.Slices ![1, 0] S7x131072
  slices_S8x131072_S1x131072_0_0 : S8x131072.Slices ![0, 0] S1x131072
  shapeCasts_S1x131072_S131072 : S1x131072.ShapeCasts S131072
  bcast_S131072_S1x131072_1 : S131072.BroadcastsInDim S1x131072 (![1] : Fin 1 → Fin S1x131072.rank)
  bcast_S1x131072_S7x131072_0_1 : S1x131072.BroadcastsInDim S7x131072 (![0, 1] : Fin 2 → Fin S7x131072.rank)
  reducesTo_S7x131072_S131072_d0 : S7x131072.ReducesTo [0] S131072
  bcast_S_S7x131072 : S_.BroadcastsInDim S7x131072 (![] : Fin 0 → Fin S7x131072.rank)
  bcast_S_S131072 : S_.BroadcastsInDim S131072 (![] : Fin 0 → Fin S131072.rank)
  reducesTo_S131072_S_d0 : S131072.ReducesTo [0] S_

variable [Facts₀]

class Facts : Prop extends Facts₀ where

variable [Facts]
-- ==== Proof.Pieces.lean ====
import proofs.«114061_j22462678958338_2_alg».proof.Proof.Gen.KernelIdeal.Frame
import Idealize.ShloMosaic.Lib.Pipeline.Value
import Idealize.ShloMosaic.Lib.Tactic

noncomputable section

/-! What each control case of the body leaves behind, as values.
  The first tile of a core (case A) zeroes both accumulators and adds the tile's sums; a middle tile (case B)
  adds to what the tile before left; the last tile (case C) does the same and then writes each accumulator,
  repeated along the 128 lanes, into its output block. -/

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One tile's step of the loss accumulator: the prior contents plus the tile's loss sum. -/
abbrev lossStep (x0 : Vec F S8x2048x128 .f32) (x1 : Vec F S8x2048 .i32) (acc : Vec F S1x1 .f32) : Vec F S1x1 .f32 :=
  k0_pay3 (k0_pay11 (F := F) x1) (k0_pay12 x0 x1) (k0_pay13 x0 x1) (k0_pay14 (F := F) x1) (k0_pay15 x0 x1) acc
/-- One tile's step of the count accumulator. -/
abbrev countStep (x0 : Vec F S8x2048x128 .f32) (x1 : Vec F S8x2048 .i32) (acc : Vec F S1x1 .f32) : Vec F S1x1 .f32 :=
  k0_pay4 (k0_pay11 (F := F) x1) (k0_pay14 (F := F) x1) (k0_pay15 x0 x1) acc

variable (c : Dev nD) (i : grid0.Coords)
  (arg2 : Memref sig .tc .vmem S8x2048x128 .f32) (harg2 : arg2.IsWhole) (arg3 : Memref sig .tc .vmem S8x2048 .i32) (harg3 : arg3.IsWhole)
  (arg4 : Memref sig .tc .vmem S1x1x128 .f32) (harg4 : arg4.IsWhole) (arg5 : Memref sig .tc .vmem S1x1x128 .f32) (harg5 : arg5.IsWhole)
  (arg6 : Memref sig .tc .vmem S1x1 .f32) (harg6 : arg6.IsWhole) (arg7 : Memref sig .tc .vmem S1x1 .f32) (harg7 : arg7.IsWhole)
  (x0 : Vec F S8x2048x128 .f32) (x1 : Vec F S8x2048 .i32) (xs0 xs1 : Vec F S1x1 .f32)

theorem sout_A_0 (hc0 : cond0_0 i) (hc1 : ¬cond0_1 i) :
    sout0_A_0 c i arg2 harg2 arg3 harg3 arg4 harg4 arg5 harg5 arg6 harg6 arg7 harg7 hc0 hc1 x0 x1 = lossStep x0 x1 (k0_pay7 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg6.read_unread, harg7.read_unread, View.ld_unit_zero (S := S8x2048x128) hz3, View.ld_unit_zero (S := S8x2048) hz2, View.ld_unit_zero (S := S1x1) hz2]

theorem sout_A_1 (hc0 : cond0_0 i) (hc1 : ¬cond0_1 i) :
    sout0_A_1 c i arg2 harg2 arg3 harg3 arg4 harg4 arg5 harg5 arg6 harg6 arg7 harg7 hc0 hc1 x0 x1 = countStep x0 x1 (k0_pay8 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg6.read_unread, harg7.read_unread, View.ld_unit_zero (S := S8x2048x128) hz3, View.ld_unit_zero (S := S8x2048) hz2, View.ld_unit_zero (S := S1x1) hz2]

theorem sout_B_0 (hc0 : ¬cond0_0 i) (hc1 : ¬cond0_1 i) :
    sout0_B_0 c i arg2 harg2 arg3 harg3 arg4 harg4 arg5 harg5 arg6 harg6 arg7 harg7 hc0 hc1 x0 x1 xs0 xs1 = lossStep x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S8x2048x128) hz3, View.ld_unit_zero (S := S8x2048) hz2, View.ld_unit_zero (S := S1x1) hz2]

theorem sout_B_1 (hc0 : ¬cond0_0 i) (hc1 : ¬cond0_1 i) :
    sout0_B_1 c i arg2 harg2 arg3 harg3 arg4 harg4 arg5 harg5 arg6 harg6 arg7 harg7 hc0 hc1 x0 x1 xs0 xs1 = countStep x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S8x2048x128) hz3, View.ld_unit_zero (S := S8x2048) hz2, View.ld_unit_zero (S := S1x1) hz2]

theorem sout_C_0 (hc0 : ¬cond0_0 i) (hc1 : cond0_1 i) :
    sout0_C_0 c i arg2 harg2 arg3 harg3 arg4 harg4 arg5 harg5 arg6 harg6 arg7 harg7 hc0 hc1 x0 x1 xs0 xs1 = lossStep x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S8x2048x128) hz3, View.ld_unit_zero (S := S8x2048) hz2, View.ld_unit_zero (S := S1x1) hz2]

theorem sout_C_1 (hc0 : ¬cond0_0 i) (hc1 : cond0_1 i) :
    sout0_C_1 c i arg2 harg2 arg3 harg3 arg4 harg4 arg5 harg5 arg6 harg6 arg7 harg7 hc0 hc1 x0 x1 xs0 xs1 = countStep x0 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S8x2048x128) hz3, View.ld_unit_zero (S := S8x2048) hz2, View.ld_unit_zero (S := S1x1) hz2]

theorem out_C_2 (hc0 : ¬cond0_0 i) (hc1 : cond0_1 i) :
    out0_C_2 c i arg2 harg2 arg3 harg3 arg4 harg4 arg5 harg5 arg6 harg6 arg7 harg7 hc0 hc1 x0 x1 xs0 xs1 = k0_pay5 (lossStep x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S1x1) _ hz2]
  simp only [View.readAt_eq_ld, harg2.read_unread, harg3.read_unread, harg6.read_unread, harg7.read_unread, View.ld_unit_zero (S := S8x2048x128) hz3, View.ld_unit_zero (S := S8x2048) hz2, View.ld_unit_zero (S := S1x1) hz2]

theorem out_C_3 (hc0 : ¬cond0_0 i) (hc1 : cond0_1 i) :
    out0_C_3 c i arg2 harg2 arg3 harg3 arg4 harg4 arg5 harg5 arg6 harg6 arg7 harg7 hc0 hc1 x0 x1 xs0 xs1 = k0_pay6 (countStep x0 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S1x1) _ hz2]
  simp only [View.readAt_eq_ld, harg2.read_unread, harg3.read_unread, harg6.read_unread, harg7.read_unread, View.ld_unit_zero (S := S8x2048x128) hz3, View.ld_unit_zero (S := S8x2048) hz2, View.ld_unit_zero (S := S1x1) hz2]

end Cert.KernelIdeal.Pieces

end
-- ==== Proof.Spec.lean ====
/-
  The specification. A sample is eight rows of 128 numbers (row 0 the anchor) and eight class labels.
  For each of the seven other rows: its squared distance to the anchor, and whether its label is the
  anchor's. From these: the largest same-class distance (or 1 when no row shares the anchor's class),
  the sum of the same-class distances, and, over the different-class rows whose distance falls below that
  largest one, the sum of the (negative) margins. A sample counts when it has a same-class row or such a
  negative margin; its loss is the first sum minus the second. The result is the sum of the counted losses
  over the 131072 samples divided by the number of counted samples, at least one.
  Everything is an extended real; the three float constants are kept as the words the programs spell.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Spec

open Idealize.ShloMosaic Idealize.ShloMosaic.ValueIdx

/-- The words of 0, 1 and −∞ as both programs write them. -/
abbrev zero : EReal := Ideal.ofBits .f32 0x00000000#32
abbrev one : EReal := Ideal.ofBits .f32 0x3F800000#32
abbrev negInf : EReal := Ideal.ofBits .f32 0xFF800000#32

section Sample

variable (e : Fin 8 → Fin 128 → EReal) (t : Fin 8 → BitVec 32)

/-- Squared distance of row `k + 1` to the anchor row. -/
def dist (k : Fin 7) : EReal := zero + ∑ l : Fin 128, (e 0 l - e k.succ l) * (e 0 l - e k.succ l)

/-- Row `k + 1` has the anchor's label. -/
def same (k : Fin 7) : BitVec 1 := IntOp.cmpi .eq (t k.succ) (t 0)

/-- Some row has the anchor's label. -/
def anySame : BitVec 1 := (Finset.univ : Finset (Fin 7)).fold IntOp.ori 0#1 (same t)

/-- The largest same-class distance (−∞ when there is none). -/
def maxSame : EReal :=
  (Finset.univ : Finset (Fin 7)).fold max negInf (fun k => Scalar.select (same t k) (dist e k) negInf)

/-- The threshold: the largest same-class distance, or 1 without a same-class row. -/
def alpha : EReal := Scalar.select (anySame t) (maxSame e t) one

/-- The sum of the same-class distances. -/
def sameSum : EReal := zero + ∑ k : Fin 7, Scalar.select (same t k) (dist e k) zero

/-- Distance minus threshold. -/
def margin (k : Fin 7) : EReal := dist e k - alpha e t

/-- Row `k + 1` is of another class and closer than the threshold. -/
def neg (k : Fin 7) : BitVec 1 := IntOp.andi (~~~ (same t k)) (Ideal.cmp .olt (margin e t k) zero)

/-- The sum of those rows' margins. -/
def negSum : EReal := zero + ∑ k : Fin 7, Scalar.select (neg e t k) (margin e t k) zero

/-- There is such a row. -/
def anyNeg : BitVec 1 := (Finset.univ : Finset (Fin 7)).fold IntOp.ori 0#1 (neg e t)

/-- The sample counts. -/
def incl : BitVec 1 := IntOp.ori (anySame t) (anyNeg e t)

/-- The sample's loss. -/
def loss : EReal := sameSum e t - negSum e t

/-- What the sample adds to the numerator: its loss when it counts, else 0. -/
def contrib : EReal := Scalar.select (incl e t) (loss e t) zero

/-- What it adds to the denominator: 1 when it counts, else 0. -/
def count : EReal := (((incl e t).toNat : ℝ) : EReal)

end Sample

/-- Sample `b` of the argument arrays. -/
abbrev rowsAt (E : (⟨3, ![8, 131072, 128]⟩ : Shape).Idx → EReal) (b : Fin 131072) : Fin 8 → Fin 128 → EReal :=
  fun k l => E (ix3 k b l)
abbrev labelsAt (T : (⟨2, ![8, 131072]⟩ : Shape).Idx → BitVec 32) (b : Fin 131072) : Fin 8 → BitVec 32 :=
  fun k => T (ix2 k b)

/-- The numerator and the denominator's sum, over all samples. -/
def lossSum (E : (⟨3, ![8, 131072, 128]⟩ : Shape).Idx → EReal) (T : (⟨2, ![8, 131072]⟩ : Shape).Idx → BitVec 32) : EReal :=
  ∑ b : Fin 131072, contrib (rowsAt E b) (labelsAt T b)
def countSum (E : (⟨3, ![8, 131072, 128]⟩ : Shape).Idx → EReal) (T : (⟨2, ![8, 131072]⟩ : Shape).Idx → BitVec 32) : EReal :=
  ∑ b : Fin 131072, count (rowsAt E b) (labelsAt T b)

/-- The result. -/
def total (E : (⟨3, ![8, 131072, 128]⟩ : Shape).Idx → EReal) (T : (⟨2, ![8, 131072]⟩ : Shape).Idx → BitVec 32) : EReal :=
  Ideal.div (zero + lossSum E T) (max (zero + countSum E T) one)

end Cert.Spec

end
-- ==== Proof.KForm.lean ====
/-
  One sample in the kernel's own arithmetic: the distance taken as (row − anchor)², sums started from
  nothing, "some row …" computed as a sum of 0/1 flags compared with zero, "not" as exclusive-or with 1.
  The same quantities as the specification's, spelt as the kernel spells them.
-/
import proofs.«114061_j22462678958338_2_alg».proof.Proof.Spec

noncomputable section

open scoped BigOperators

namespace Cert.KForm

open Idealize.ShloMosaic Cert.Spec

variable (e : Fin 8 → Fin 128 → EReal) (t : Fin 8 → BitVec 32)

/-- A one-bit condition widened to 32 bits and read as a signed integer: 0 or 1. -/
def flag (c : BitVec 1) : EReal := (((c.setWidth 32).toInt : ℝ) : EReal)

def dist (k : Fin 7) : EReal := ∑ l : Fin 128, (e k.succ l - e 0 l) * (e k.succ l - e 0 l)

def same (k : Fin 7) : BitVec 1 := IntOp.cmpi .eq (t k.succ) (t 0)

def anySame : BitVec 1 := Ideal.cmp .ogt (∑ k : Fin 7, flag (same t k)) zero

def maxSame : EReal :=
  (Finset.univ : Finset (Fin 7)).fold max negInf (fun k => Scalar.select (same t k) (dist e k) negInf)

def alpha : EReal := Scalar.select (anySame t) (maxSame e t) one

def sameSum : EReal := ∑ k : Fin 7, Scalar.select (same t k) (dist e k) zero

def margin (k : Fin 7) : EReal := dist e k - alpha e t

def neg (k : Fin 7) : BitVec 1 := IntOp.andi (IntOp.xori (same t k) 1#1) (Ideal.cmp .olt (margin e t k) zero)

def negSum : EReal := ∑ k : Fin 7, Scalar.select (neg e t k) (margin e t k) zero

def anyNeg : BitVec 1 := Ideal.cmp .ogt (∑ k : Fin 7, flag (neg e t k)) zero

def incl : BitVec 1 := IntOp.ori (anySame t) (anyNeg e t)

def loss : EReal := sameSum e t - negSum e t

def contrib : EReal := Scalar.select (incl e t) (loss e t) zero

def count : EReal := flag (incl e t)

end Cert.KForm

end
-- ==== Proof.Accum.lean ====
/-
  The two accumulators across the grid. Within one core's run of 32 tiles the first tile resets an
  accumulator to zero plus its own sum and every later tile adds its sum to what the tile before left;
  so after the last tile of the run the accumulator holds zero plus the sum of the 32 tiles' sums.
-/
import proofs.«114061_j22462678958338_2_alg».proof.Proof.Pieces
import proofs.«114061_j22462678958338_2_alg».proof.Proof.KForm
import Idealize.ShloMosaic.Lib.Pipeline.Value
import Idealize.ShloMosaic.Lib.ValueIdx

noncomputable section

open scoped BigOperators

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces

/-- Sample `r` of a tile: its eight rows and its eight labels. -/
abbrev rows (x0 : Vec Ideal S8x2048x128 .f32) (r : Fin 2048) : Fin 8 → Fin 128 → EReal := fun k l => x0 (ix3 k r l)
abbrev labels (x1 : Vec Ideal S8x2048 .i32) (r : Fin 2048) : Fin 8 → BitVec 32 := fun k => x1 (ix2 k r)

/-- A tile's loss sum and count, over its 2048 samples. -/
def tileLoss (x0 : Vec Ideal S8x2048x128 .f32) (x1 : Vec Ideal S8x2048 .i32) : EReal :=
  ∑ r : Fin 2048, Cert.KForm.contrib (rows x0 r) (labels x1 r)
def tileCount (x0 : Vec Ideal S8x2048x128 .f32) (x1 : Vec Ideal S8x2048 .i32) : EReal :=
  ∑ r : Fin 2048, Cert.KForm.count (rows x0 r) (labels x1 r)

/-- What the body's arithmetic is, read at an index: an accumulator step adds the tile's sum, the reset
    value is zero, and the output block repeats the accumulator along its lanes. -/
structure TileFacts : Prop where
  loss : ∀ (x0 : Vec Ideal S8x2048x128 .f32) (x1 : Vec Ideal S8x2048 .i32) (acc : Vec Ideal S1x1 .f32) (j : S1x1.Idx),
    lossStep (F := Ideal) x0 x1 acc j = acc j + tileLoss x0 x1
  count : ∀ (x0 : Vec Ideal S8x2048x128 .f32) (x1 : Vec Ideal S8x2048 .i32) (acc : Vec Ideal S1x1 .f32) (j : S1x1.Idx),
    countStep (F := Ideal) x0 x1 acc j = acc j + tileCount x0 x1
  zero7 : ∀ j : S1x1.Idx, k0_pay7 (F := Ideal) j = Cert.Spec.zero
  zero8 : ∀ j : S1x1.Idx, k0_pay8 (F := Ideal) j = Cert.Spec.zero
  lanes5 : ∀ (v : Vec Ideal S1x1 .f32) (y : S1x1x128.Idx), k0_pay5 (F := Ideal) v y = v (ix2 0 0)
  lanes6 : ∀ (v : Vec Ideal S1x1 .f32) (y : S1x1x128.Idx), k0_pay6 (F := Ideal) v y = v (ix2 0 0)

variable (m : (ℓ : Loc nD τ sig) → Buf (Elt Ideal) ℓ) (c : Dev nD)

/-- The two input blocks at grid point `n`. -/
abbrev blk0 (n : ℕ) (h : n < cfg0.N) : Vec Ideal S8x2048x128 .f32 := iblk m c 0 ⟨n, h⟩
abbrev blk1 (n : ℕ) (h : n < cfg0.N) : Vec Ideal S8x2048 .i32 := iblk m c 1 ⟨n, h⟩

/-- Grid point `n`'s loss sum and count (zero past the grid, where they are never used). -/
def lossAt (n : ℕ) : EReal := if h : n < cfg0.N then tileLoss (blk0 m c n h) (blk1 m c n h) else 0
def countAt (n : ℕ) : EReal := if h : n < cfg0.N then tileCount (blk0 m c n h) (blk1 m c n h) else 0

/-- The accumulators after grid point `n`. -/
abbrev accL (n : ℕ) (h : n < cfg0.N) : Vec Ideal S1x1 .f32 := (outsAt0 m c n h).2.2.1
abbrev accC (n : ℕ) (h : n < cfg0.N) : Vec Ideal S1x1 .f32 := (outsAt0 m c n h).2.2.2

/-- The first tile of a core resets. -/
theorem accL_reset (n : ℕ) (h : n < cfg0.N) (h0 : n % 32 = 0) :
    accL m c n h = lossStep (blk0 m c n h) (blk1 m c n h) (k0_pay7 (F := Ideal)) := by
  have hN : cfg0.N = 64 := N_0
  have h1 : ¬ n % 32 = 31 := by omega
  have e : outsAt0 m c n h = _ := outsAt0_A m c ⟨n, h⟩ h0 h1
  exact (congrArg (fun p => p.2.2.1) e).trans
    (sout_A_0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (iblk m c 0 ⟨n, h⟩) (iblk m c 1 ⟨n, h⟩) ((hcond0_0 ⟨n, h⟩).mpr h0) (fun hh => h1 ((hcond0_1 ⟨n, h⟩).mp hh)))

theorem accC_reset (n : ℕ) (h : n < cfg0.N) (h0 : n % 32 = 0) :
    accC m c n h = countStep (blk0 m c n h) (blk1 m c n h) (k0_pay8 (F := Ideal)) := by
  have hN : cfg0.N = 64 := N_0
  have h1 : ¬ n % 32 = 31 := by omega
  have e : outsAt0 m c n h = _ := outsAt0_A m c ⟨n, h⟩ h0 h1
  exact (congrArg (fun p => p.2.2.2) e).trans
    (sout_A_1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) (iblk m c 0 ⟨n, h⟩) (iblk m c 1 ⟨n, h⟩) ((hcond0_0 ⟨n, h⟩).mpr h0) (fun hh => h1 ((hcond0_1 ⟨n, h⟩).mp hh)))

/-- Every other tile adds to what the tile before left. -/
theorem accL_step (n : ℕ) (h : n + 1 < cfg0.N) (h0 : ¬ (n + 1) % 32 = 0) :
    accL m c (n + 1) h = lossStep (blk0 m c (n + 1) h) (blk1 m c (n + 1) h) (accL m c n (Nat.lt_of_succ_lt h)) := by
  by_cases h1 : (n + 1) % 32 = 31
  · have e : outsAt0 m c (n + 1) h = _ := outsAt0_C m c ⟨n + 1, h⟩ h0 h1
    exact (congrArg (fun p => p.2.2.1) e).trans
      (sout_C_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩) (accL m c n (Nat.lt_of_succ_lt h)) (accC m c n (Nat.lt_of_succ_lt h)) (fun hh => h0 ((hcond0_0 ⟨n + 1, h⟩).mp hh)) ((hcond0_1 ⟨n + 1, h⟩).mpr h1))
  · have e : outsAt0 m c (n + 1) h = _ := outsAt0_B m c ⟨n + 1, h⟩ h0 h1
    exact (congrArg (fun p => p.2.2.1) e).trans
      (sout_B_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩) (accL m c n (Nat.lt_of_succ_lt h)) (accC m c n (Nat.lt_of_succ_lt h)) (fun hh => h0 ((hcond0_0 ⟨n + 1, h⟩).mp hh)) (fun hh => h1 ((hcond0_1 ⟨n + 1, h⟩).mp hh)))

theorem accC_step (n : ℕ) (h : n + 1 < cfg0.N) (h0 : ¬ (n + 1) % 32 = 0) :
    accC m c (n + 1) h = countStep (blk0 m c (n + 1) h) (blk1 m c (n + 1) h) (accC m c n (Nat.lt_of_succ_lt h)) := by
  by_cases h1 : (n + 1) % 32 = 31
  · have e : outsAt0 m c (n + 1) h = _ := outsAt0_C m c ⟨n + 1, h⟩ h0 h1
    exact (congrArg (fun p => p.2.2.2) e).trans
      (sout_C_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩) (accL m c n (Nat.lt_of_succ_lt h)) (accC m c n (Nat.lt_of_succ_lt h)) (fun hh => h0 ((hcond0_0 ⟨n + 1, h⟩).mp hh)) ((hcond0_1 ⟨n + 1, h⟩).mpr h1))
  · have e : outsAt0 m c (n + 1) h = _ := outsAt0_B m c ⟨n + 1, h⟩ h0 h1
    exact (congrArg (fun p => p.2.2.2) e).trans
      (sout_B_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩) (accL m c n (Nat.lt_of_succ_lt h)) (accC m c n (Nat.lt_of_succ_lt h)) (fun hh => h0 ((hcond0_0 ⟨n + 1, h⟩).mp hh)) (fun hh => h1 ((hcond0_1 ⟨n + 1, h⟩).mp hh)))

/-- After the last tile of a core's run the loss accumulator is zero plus the run's 32 tile sums. -/
theorem accL_flush (hT : TileFacts) (t : Fin cfg0.N) (ht : t.val % 32 = 31) (j : S1x1.Idx) :
    accL m c t.val t.isLt j = Cert.Spec.zero + ∑ s ∈ Finset.range 32, lossAt m c (32 * (t.val / 32) + s) := by
  have hN : cfg0.N = 64 := N_0
  have h' : 32 * (t.val / 32) + t.val % 32 < cfg0.N := by rw [Nat.div_add_mod]; exact t.isLt
  have e1 := Pipeline.eq_accAt_of_mod (N := cfg0.N) (fun n h => accL m c n h) 32
    (fun n h => lossStep (blk0 m c n h) (blk1 m c n h) (k0_pay7 (F := Ideal)))
    (fun n h acc => lossStep (blk0 m c n h) (blk1 m c n h) acc)
    (accL_reset m c) (accL_step m c) (by decide) t.val t.isLt h'
  have e2 : ∀ (k : ℕ) (hk : k = 31) (hh : 32 * (t.val / 32) + k < cfg0.N),
      Pipeline.accAt (N := cfg0.N) (fun n h => lossStep (blk0 m c n h) (blk1 m c n h) (k0_pay7 (F := Ideal)))
        (fun n h acc => lossStep (blk0 m c n h) (blk1 m c n h) acc) (32 * (t.val / 32)) k hh j
        = Cert.Spec.zero + ∑ s ∈ Finset.range 32, lossAt m c (32 * (t.val / 32) + s) := by
    intro k hk hh
    subst hk
    exact Pipeline.accAt_add_apply (N := cfg0.N) (ι := S1x1.Idx) (β := EReal)
      (fun n h => lossStep (blk0 m c n h) (blk1 m c n h) (k0_pay7 (F := Ideal)))
      (fun n h acc => lossStep (blk0 m c n h) (blk1 m c n h) acc)
      (fun _ => Cert.Spec.zero) (fun n _ => lossAt m c n) (32 * (t.val / 32)) 31
      (fun hb i => by
        show lossStep (blk0 m c _ hb) (blk1 m c _ hb) (k0_pay7 (F := Ideal)) i = Cert.Spec.zero + lossAt m c _
        rw [hT.loss, hT.zero7]; unfold lossAt; rw [dif_pos hb])
      (fun n hn acc i _ _ => by
        show lossStep (blk0 m c n hn) (blk1 m c n hn) acc i = acc i + lossAt m c n
        rw [hT.loss]; unfold lossAt; rw [dif_pos hn])
      31 le_rfl hh j
  exact (congrFun e1 j).trans (e2 (t.val % 32) ht h')

/-- The same for the count accumulator. -/
theorem accC_flush (hT : TileFacts) (t : Fin cfg0.N) (ht : t.val % 32 = 31) (j : S1x1.Idx) :
    accC m c t.val t.isLt j = Cert.Spec.zero + ∑ s ∈ Finset.range 32, countAt m c (32 * (t.val / 32) + s) := by
  have hN : cfg0.N = 64 := N_0
  have h' : 32 * (t.val / 32) + t.val % 32 < cfg0.N := by rw [Nat.div_add_mod]; exact t.isLt
  have e1 := Pipeline.eq_accAt_of_mod (N := cfg0.N) (fun n h => accC m c n h) 32
    (fun n h => countStep (blk0 m c n h) (blk1 m c n h) (k0_pay8 (F := Ideal)))
    (fun n h acc => countStep (blk0 m c n h) (blk1 m c n h) acc)
    (accC_reset m c) (accC_step m c) (by decide) t.val t.isLt h'
  have e2 : ∀ (k : ℕ) (hk : k = 31) (hh : 32 * (t.val / 32) + k < cfg0.N),
      Pipeline.accAt (N := cfg0.N) (fun n h => countStep (blk0 m c n h) (blk1 m c n h) (k0_pay8 (F := Ideal)))
        (fun n h acc => countStep (blk0 m c n h) (blk1 m c n h) acc) (32 * (t.val / 32)) k hh j
        = Cert.Spec.zero + ∑ s ∈ Finset.range 32, countAt m c (32 * (t.val / 32) + s) := by
    intro k hk hh
    subst hk
    exact Pipeline.accAt_add_apply (N := cfg0.N) (ι := S1x1.Idx) (β := EReal)
      (fun n h => countStep (blk0 m c n h) (blk1 m c n h) (k0_pay8 (F := Ideal)))
      (fun n h acc => countStep (blk0 m c n h) (blk1 m c n h) acc)
      (fun _ => Cert.Spec.zero) (fun n _ => countAt m c n) (32 * (t.val / 32)) 31
      (fun hb i => by
        show countStep (blk0 m c _ hb) (blk1 m c _ hb) (k0_pay8 (F := Ideal)) i = Cert.Spec.zero + countAt m c _
        rw [hT.count, hT.zero8]; unfold countAt; rw [dif_pos hb])
      (fun n hn acc i _ _ => by
        show countStep (blk0 m c n hn) (blk1 m c n hn) acc i = acc i + countAt m c n
        rw [hT.count]; unfold countAt; rw [dif_pos hn])
      31 le_rfl hh j
  exact (congrFun e1 j).trans (e2 (t.val % 32) ht h')

/-- At the last tile of a run each output block is its accumulator repeated along the lanes. -/
theorem out2_eq (t : Fin cfg0.N) (ht : t.val % 32 = 31) :
    (outsAt0 m c t.val t.isLt).1 = k0_pay5 (F := Ideal) (accL m c t.val t.isLt) := by
  have h0 : ¬ t.val % 32 = 0 := by omega
  have e : outsAt0 m c t.val t.isLt = _ := outsAt0_C m c t h0 ht
  rw [show accL m c t.val t.isLt = _ from (congrArg (fun p => p.2.2.1) e).trans
    (sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) _ (outsAt0 m c (t.val - 1) (Nat.lt_of_le_of_lt (Nat.sub_le _ _) t.isLt)).2.2.2 (fun hh => h0 ((hcond0_0 t).mp hh)) ((hcond0_1 t).mpr ht))]
  exact (congrArg (fun p => p.1) e).trans
    (out_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) _ (outsAt0 m c (t.val - 1) (Nat.lt_of_le_of_lt (Nat.sub_le _ _) t.isLt)).2.2.2 (fun hh => h0 ((hcond0_0 t).mp hh)) ((hcond0_1 t).mpr ht))

theorem out3_eq (t : Fin cfg0.N) (ht : t.val % 32 = 31) :
    (outsAt0 m c t.val t.isLt).2.1 = k0_pay6 (F := Ideal) (accC m c t.val t.isLt) := by
  have h0 : ¬ t.val % 32 = 0 := by omega
  have e : outsAt0 m c t.val t.isLt = _ := outsAt0_C m c t h0 ht
  rw [show accC m c t.val t.isLt = _ from (congrArg (fun p => p.2.2.2) e).trans
    (sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 _ (fun hh => h0 ((hcond0_0 t).mp hh)) ((hcond0_1 t).mpr ht))]
  exact (congrArg (fun p => p.2.1) e).trans
    (out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 _ (fun hh => h0 ((hcond0_0 t).mp hh)) ((hcond0_1 t).mpr ht))

end Cert.KernelIdeal.Accum

end
-- ==== Proof.Tile1.lean ====
/-
  The kernel body's arithmetic read at an index. Each payload of the body, a vector over the tile's
  2048 samples, is read at one sample (and one of its seven non-anchor rows) as the scalar quantity of that
  sample; the two stored values are then the accumulator plus the sum over the tile's samples.
-/
import proofs.«114061_j22462678958338_2_alg».proof.Proof.Gen.KernelIdeal.Skeleton
import proofs.«114061_j22462678958338_2_alg».proof.Proof.KForm
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Tile

open Idealize.ShloMosaic Idealize.ShloMosaic.ValueIdx Cert.KernelIdeal Cert.KernelIdeal.Gen

/-- Sample `r` of a tile: its eight rows of 128 numbers, and its eight labels. -/
abbrev rows (x0 : Vec Ideal S8x2048x128 .f32) (r : Fin 2048) : Fin 8 → Fin 128 → EReal := fun k l => x0 (ix3 k r l)
abbrev labels (x1 : Vec Ideal S8x2048 .i32) (r : Fin 2048) : Fin 8 → BitVec 32 := fun k => x1 (ix2 k r)

/-! ## Reductions over one axis, at coordinates -/

/-- A sum over the seven rows of a `7 × 2048` vector, at sample `r`. -/
theorem sum_rows (src : FVec Ideal S7x2048 .f32) (h : S7x2048.Reduces [0] S2048) (hφ : FKind.Formats .f32)
    (hacc : (0x00000000#32 : BitVec 32) = FKind.add.neutral .f32 hφ) (r : Fin 2048) :
    multiReduction .add [0] S2048 src 0x00000000#32 h hφ hacc (ix1 r) = ∑ k : Fin 7, src (ix2 k r) :=
  (Ideal.multiReduction_add_single src 0x00000000#32 h hφ hacc (ix1 r)).trans
    (Finset.sum_congr rfl fun k _ => congrArg src (funext fun a => Fin.ext (by
      match a with | ⟨0, _⟩ => rfl | ⟨1, _⟩ => rfl)))

/-- A maximum over the seven rows of a `7 × 2048` vector, at sample `r`, from `-∞`. -/
theorem max_rows (src : FVec Ideal S7x2048 .f32) (h : S7x2048.Reduces [0] S2048) (hφ : FKind.Formats .f32)
    (hacc : (0xFF800000#32 : BitVec 32) = FKind.maximumf.neutral .f32 hφ) (r : Fin 2048) :
    multiReduction .maximumf [0] S2048 src 0xFF800000#32 h hφ hacc (ix1 r)
      = (Finset.univ : Finset (Fin 7)).fold max Cert.Spec.negInf (fun k => src (ix2 k r)) :=
  (Ideal.multiReduction_maximumf_single src 0xFF800000#32 h hφ hacc (ix1 r)).trans
    (congrArg ((Finset.univ : Finset (Fin 7)).fold max Cert.Spec.negInf) (funext fun k =>
      congrArg src (funext fun a => Fin.ext (by match a with | ⟨0, _⟩ => rfl | ⟨1, _⟩ => rfl))))

/-- A sum over the 128 lanes of a `7 × 2048 × 128` vector, at row `k` of sample `r`. -/
theorem sum_lanes (src : FVec Ideal S7x2048x128 .f32) (h : S7x2048x128.Reduces [2] S7x2048) (hφ : FKind.Formats .f32)
    (hacc : (0x00000000#32 : BitVec 32) = FKind.add.neutral .f32 hφ) (k : Fin 7) (r : Fin 2048) :
    multiReduction .add [2] S7x2048 src 0x00000000#32 h hφ hacc (ix2 k r) = ∑ l : Fin 128, src (ix3 k r l) :=
  (Ideal.multiReduction_add_single src 0x00000000#32 h hφ hacc (ix2 k r)).trans
    (Finset.sum_congr rfl fun l _ => congrArg src (funext fun a => Fin.ext (by
      match a with | ⟨0, _⟩ => rfl | ⟨1, _⟩ => rfl | ⟨2, _⟩ => rfl)))

/-- A sum over the 2048 samples of a `1 × 2048` vector. -/
theorem sum_samples (src : FVec Ideal S1x2048 .f32) (h : S1x2048.Reduces [1] S1) (hφ : FKind.Formats .f32)
    (hacc : (0x00000000#32 : BitVec 32) = FKind.add.neutral .f32 hφ) (u : Fin 1) :
    multiReduction .add [1] S1 src 0x00000000#32 h hφ hacc (ix1 u) = ∑ r : Fin 2048, src (ix2 (0 : Fin 1) r) :=
  (Ideal.multiReduction_add_single src 0x00000000#32 h hφ hacc (ix1 u)).trans
    (Finset.sum_congr rfl fun r _ => congrArg src (funext fun a => Fin.ext (by
      match a with | ⟨0, _⟩ => (show (u : Nat) = 0; omega) | ⟨1, _⟩ => rfl)))

/-! ## Layout operations of the body, at coordinates -/

section Layout
variable {α : Type}

/-- The anchor rows: the slice `[0:1]` of the eight rows. -/
theorem slice_anchor3 (x : S8x2048x128.Idx → α) (h : S8x2048x128.Slices ![0, 0, 0] S1x2048x128)
    (u : Fin 1) (r : Fin 2048) (l : Fin 128) :
    extractStridedSlice S1x2048x128 ![0, 0, 0] x h (ix3 u r l) = x (ix3 (0 : Fin 8) r l) :=
  extractStridedSlice_apply _ _ _ _ _ (fun ax => by
    match ax with
    | ⟨0, _⟩ => (show (0 : Nat) = 0 + u.val; omega)
    | ⟨1, _⟩ => exact (Nat.zero_add _).symm
    | ⟨2, _⟩ => exact (Nat.zero_add _).symm)

/-- The seven other rows: the slice `[1:8]`. -/
theorem slice_others3 (x : S8x2048x128.Idx → α) (h : S8x2048x128.Slices ![1, 0, 0] S7x2048x128)
    (k : Fin 7) (r : Fin 2048) (l : Fin 128) :
    extractStridedSlice S7x2048x128 ![1, 0, 0] x h (ix3 k r l) = x (ix3 k.succ r l) :=
  extractStridedSlice_apply _ _ _ _ _ (fun ax => by
    match ax with
    | ⟨0, _⟩ => (show k.val + 1 = 1 + k.val; omega)
    | ⟨1, _⟩ => exact (Nat.zero_add _).symm
    | ⟨2, _⟩ => exact (Nat.zero_add _).symm)

/-- One `2048 × 128` slab repeated over seven rows. -/
theorem bcast_rows3 (v : S1x2048x128.Idx → α) (h : S1x2048x128.Broadcasts S7x2048x128)
    (k : Fin 7) (r : Fin 2048) (l : Fin 128) :
    broadcastTo S7x2048x128 v h (ix3 k r l) = v (ix3 (0 : Fin 1) r l) := by
  refine broadcastTo_apply v h (ix3 k r l) (ix3 (0 : Fin 1) r l) fun ax => ?_
  match ax with
  | ⟨0, _⟩ => rfl
  | ⟨1, _⟩ => show r.val = if (2048 : Nat) = 1 then 0 else r.val; rw [if_neg (by decide)]
  | ⟨2, _⟩ => show l.val = if (128 : Nat) = 1 then 0 else l.val; rw [if_neg (by decide)]

/-- The anchor's labels: the slice `[0:1]` of the eight label rows. -/
theorem slice_anchor2 (x : S8x2048.Idx → α) (h : S8x2048.Slices ![0, 0] S1x2048) (u : Fin 1) (r : Fin 2048) :
    extractStridedSlice S1x2048 ![0, 0] x h (ix2 u r) = x (ix2 (0 : Fin 8) r) :=
  slice2_axis0_apply 0 x h u r 0 (by show (0 : Nat) = 0 + u.val; omega)

/-- The seven other label rows. -/
theorem slice_others2 (x : S8x2048.Idx → α) (h : S8x2048.Slices ![1, 0] S7x2048) (k : Fin 7) (r : Fin 2048) :
    extractStridedSlice S7x2048 ![1, 0] x h (ix2 k r) = x (ix2 k.succ r) :=
  slice2_axis0_apply 1 x h k r k.succ (by show k.val + 1 = 1 + k.val; omega)

end Layout

/-! ## The payloads at a sample -/

/-- The squared distance of row `k + 1` of sample `r` to the sample's anchor. -/
theorem pay9_at (x0 : Vec Ideal S8x2048x128 .f32) (k : Fin 7) (r : Fin 2048) :
    k0_pay9 (F := Ideal) x0 (ix2 k r) = Cert.KForm.dist (rows x0 r) k := by
  unfold k0_pay9
  refine (sum_lanes _ _ _ _ k r).trans ?_
  unfold Cert.KForm.dist
  refine Finset.sum_congr rfl fun l _ => ?_
  have hd : ∀ (a : FVec Ideal S7x2048x128 .f32) (b : FVec Ideal S7x2048x128 .f32) (p q : EReal),
      a (ix3 k r l) = p → b (ix3 k r l) = q → mulf (subf a b) (subf a b) (ix3 k r l) = (p - q) * (p - q) := by
    intro a b p q ha hb; subst ha; subst hb; rfl
  exact hd _ _ _ _ (slice_others3 _ _ k r l)
    ((bcast_rows3 _ _ k r l).trans ((shapeCast_ab_1ab_apply _ _ 0 r l).trans
      ((shapeCast_1ab_ab_apply _ _ r l).trans (slice_anchor3 _ _ 0 r l))))

/-- Whether row `k + 1` of sample `r` has the anchor's label. -/
theorem pay10_at (x1 : Vec Ideal S8x2048 .i32) (k : Fin 7) (r : Fin 2048) :
    k0_pay10 (F := Ideal) x1 (ix2 k r) = Cert.KForm.same (labels x1 r) k := by
  unfold k0_pay10
  have hd : ∀ (a b : IVec S7x2048 32) (p q : BitVec 32),
      a (ix2 k r) = p → b (ix2 k r) = q → cmpi .eq a b (ix2 k r) = IntOp.cmpi .eq p q := by
    intro a b p q ha hb; subst ha; subst hb; rfl
  exact hd _ _ _ _ (slice_others2 _ _ k r)
    ((broadcastTo_1b_ab_apply _ _ k r).trans ((shapeCast_a_1a_apply _ _ 0 r).trans
      ((shapeCast_1a_a_apply _ _ r).trans (slice_anchor2 _ _ 0 r))))

/-! ## Three shapes the body repeats: a count of flags, a selected sum, a selected maximum -/

/-- The seven one-bit flags of sample `r`, widened, read as numbers and added. -/
theorem flagsum_at (c : IVec S7x2048 1) (hlt : 1 < 32) (h : S7x2048.Reduces [0] S2048) (hφ : FKind.Formats .f32)
    (hacc : (0x00000000#32 : BitVec 32) = FKind.add.neutral .f32 hφ) (hs : S2048.ShapeCasts S1x2048) (r : Fin 2048) :
    shapeCast S1x2048 (multiReduction .add [0] S2048 (sitofp (F := Ideal) .f32 (extui 32 c hlt)) 0x00000000#32 h hφ hacc) hs
        (ix2 (0 : Fin 1) r)
      = ∑ k : Fin 7, Cert.KForm.flag (c (ix2 k r)) :=
  (shapeCast_a_1a_apply _ _ 0 r).trans ((sum_rows _ _ _ _ r).trans (Finset.sum_congr rfl fun k _ => rfl))

/-- "Some flag of sample `r` is set", as the body computes it: the count compared with zero. -/
theorem any_at (c : IVec S7x2048 1) (hlt : 1 < 32) (h : S7x2048.Reduces [0] S2048) (hφ : FKind.Formats .f32)
    (hacc : (0x00000000#32 : BitVec 32) = FKind.add.neutral .f32 hφ) (hs : S2048.ShapeCasts S1x2048) (r : Fin 2048) :
    cmpf .ogt (shapeCast S1x2048 (multiReduction .add [0] S2048 (sitofp (F := Ideal) .f32 (extui 32 c hlt)) 0x00000000#32 h hφ hacc) hs)
        (broadcast S1x2048 (Scalar.ofBits .f32 0x00000000#32)) (ix2 (0 : Fin 1) r)
      = Ideal.cmp .ogt (∑ k : Fin 7, Cert.KForm.flag (c (ix2 k r))) Cert.Spec.zero :=
  congrArg (fun p => Ideal.cmp .ogt p Cert.Spec.zero) (flagsum_at c hlt h hφ hacc hs r)

/-- The sum over the rows of sample `r` of the values a flag selects, zero elsewhere. -/
theorem selsum_at (c : IVec S7x2048 1) (v : FVec Ideal S7x2048 .f32) (h : S7x2048.Reduces [0] S2048) (hφ : FKind.Formats .f32)
    (hacc : (0x00000000#32 : BitVec 32) = FKind.add.neutral .f32 hφ) (hs : S2048.ShapeCasts S1x2048) (r : Fin 2048) :
    shapeCast S1x2048 (multiReduction .add [0] S2048
        (select c v (broadcast S7x2048 (Scalar.ofBits (F := Ideal) .f32 0x00000000#32))) 0x00000000#32 h hφ hacc) hs (ix2 (0 : Fin 1) r)
      = ∑ k : Fin 7, Scalar.select (c (ix2 k r)) (v (ix2 k r)) Cert.Spec.zero :=
  (shapeCast_a_1a_apply _ _ 0 r).trans ((sum_rows _ _ _ _ r).trans (Finset.sum_congr rfl fun k _ => rfl))

/-- The maximum over the rows of sample `r` of the values a flag selects, `-∞` elsewhere. -/
theorem selmax_at (c : IVec S7x2048 1) (v : FVec Ideal S7x2048 .f32) (h : S7x2048.Reduces [0] S2048) (hφ : FKind.Formats .f32)
    (hacc : (0xFF800000#32 : BitVec 32) = FKind.maximumf.neutral .f32 hφ) (hs : S2048.ShapeCasts S1x2048) (r : Fin 2048) :
    shapeCast S1x2048 (multiReduction .maximumf [0] S2048
        (select c v (broadcast S7x2048 (Scalar.ofBits (F := Ideal) .f32 0xFF800000#32))) 0xFF800000#32 h hφ hacc) hs (ix2 (0 : Fin 1) r)
      = (Finset.univ : Finset (Fin 7)).fold max Cert.Spec.negInf
          (fun k => Scalar.select (c (ix2 k r)) (v (ix2 k r)) Cert.Spec.negInf) :=
  (shapeCast_a_1a_apply _ _ 0 r).trans (max_rows _ _ _ _ r)

end Cert.Tile

end
-- ==== Proof.Tile.lean ====
/-
  The kernel body's arithmetic read at an index, second part: the per-sample quantities that depend on the
  labels and the threshold, the "counted sample" flag, and the two stored values as the accumulator plus the
  sum over the tile's samples. The first part has the reductions, the layout operations and the distances.
-/
import proofs.«114061_j22462678958338_2_alg».proof.Proof.Tile1
import proofs.«114061_j22462678958338_2_alg».proof.Proof.Gen.KernelIdeal.Skeleton
import proofs.«114061_j22462678958338_2_alg».proof.Proof.KForm
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Tile

open Idealize.ShloMosaic Idealize.ShloMosaic.ValueIdx Cert.KernelIdeal Cert.KernelIdeal.Gen

/-- Some row of sample `r` has the anchor's label. -/
theorem pay11_at (x1 : Vec Ideal S8x2048 .i32) (r : Fin 2048) :
    k0_pay11 (F := Ideal) x1 (ix2 (0 : Fin 1) r) = Cert.KForm.anySame (labels x1 r) := by
  unfold k0_pay11
  refine (any_at _ _ _ _ _ _ r).trans ?_
  unfold Cert.KForm.anySame
  exact congrArg (fun p => Ideal.cmp .ogt p Cert.Spec.zero)
    (Finset.sum_congr rfl fun k _ => congrArg Cert.KForm.flag (pay10_at x1 k r))

/-- The sum of sample `r`'s same-class distances. -/
theorem pay12_at (x0 : Vec Ideal S8x2048x128 .f32) (x1 : Vec Ideal S8x2048 .i32) (r : Fin 2048) :
    k0_pay12 (F := Ideal) x0 x1 (ix2 (0 : Fin 1) r) = Cert.KForm.sameSum (rows x0 r) (labels x1 r) := by
  unfold k0_pay12
  refine (selsum_at _ _ _ _ _ _ r).trans ?_
  unfold Cert.KForm.sameSum
  refine Finset.sum_congr rfl fun k _ => ?_
  rw [pay10_at, pay9_at]

/-- The margin of row `k + 1` of sample `r`: its distance minus the sample's threshold. -/
theorem pay13_at (x0 : Vec Ideal S8x2048x128 .f32) (x1 : Vec Ideal S8x2048 .i32) (k : Fin 7) (r : Fin 2048) :
    k0_pay13 (F := Ideal) x0 x1 (ix2 k r) = Cert.KForm.margin (rows x0 r) (labels x1 r) k := by
  unfold k0_pay13
  have hd : ∀ (a b : FVec Ideal S7x2048 .f32) (p q : EReal),
      a (ix2 k r) = p → b (ix2 k r) = q → subf a b (ix2 k r) = p - q := by
    intro a b p q ha hb; subst ha; subst hb; rfl
  refine hd _ _ _ _ (pay9_at x0 k r) ((broadcastTo_1b_ab_apply _ _ k r).trans ?_)
  have hs : ∀ (c : IVec S1x2048 1) (a : FVec Ideal S1x2048 .f32) (cb : BitVec 1) (p : EReal),
      c (ix2 (0 : Fin 1) r) = cb → a (ix2 (0 : Fin 1) r) = p →
      select c a (broadcast S1x2048 (Scalar.ofBits (F := Ideal) .f32 0x3F800000#32)) (ix2 (0 : Fin 1) r)
        = Scalar.select cb p Cert.Spec.one := by
    intro c a cb p hc ha; subst hc; subst ha; rfl
  refine hs _ _ _ _ (pay11_at x1 r) ((selmax_at _ _ _ _ _ _ r).trans ?_)
  unfold Cert.KForm.maxSame
  exact congrArg ((Finset.univ : Finset (Fin 7)).fold max Cert.Spec.negInf) (funext fun k' => by
    rw [pay10_at, pay9_at])

/-- Row `k + 1` of sample `r` is of another class: "not" as exclusive-or with 1. -/
theorem pay14_at (x1 : Vec Ideal S8x2048 .i32) (k : Fin 7) (r : Fin 2048) :
    k0_pay14 (F := Ideal) x1 (ix2 k r) = IntOp.xori (Cert.KForm.same (labels x1 r) k) 1#1 := by
  unfold k0_pay14
  exact congrArg (fun p => IntOp.xori p 1#1) (pay10_at x1 k r)

/-- The margin of row `k + 1` of sample `r` is negative. -/
theorem pay15_at (x0 : Vec Ideal S8x2048x128 .f32) (x1 : Vec Ideal S8x2048 .i32) (k : Fin 7) (r : Fin 2048) :
    k0_pay15 (F := Ideal) x0 x1 (ix2 k r) = Ideal.cmp .olt (Cert.KForm.margin (rows x0 r) (labels x1 r) k) Cert.Spec.zero := by
  unfold k0_pay15
  exact congrArg (fun p => Ideal.cmp .olt p Cert.Spec.zero) (pay13_at x0 x1 k r)

/-! ## The per-sample flags and the two stored values -/

/-- The body's "counted sample" flag over any three condition vectors, at sample `r`. -/
theorem pay2_gen (v24 : IVec S1x2048 1) (v37 v39 : IVec S7x2048 1) (r : Fin 2048) :
    k0_pay2 (F := Ideal) v24 v37 v39 (ix2 (0 : Fin 1) r)
      = IntOp.ori (v24 (ix2 (0 : Fin 1) r))
          (Ideal.cmp .ogt (∑ k : Fin 7, Cert.KForm.flag (k0_pay1 v37 v39 (ix2 k r))) Cert.Spec.zero) := by
  unfold k0_pay2
  exact congrArg (fun p => IntOp.ori (v24 (ix2 (0 : Fin 1) r)) p) (any_at _ _ _ _ _ _ r)

/-- The stored loss accumulator over any operands: the old value plus, over the samples, the selected difference of the
    first sum and the selected sum of the margins. -/
theorem pay3_gen (v24 : IVec S1x2048 1) (v34 : FVec Ideal S1x2048 .f32) (v36 : FVec Ideal S7x2048 .f32)
    (v37 v39 : IVec S7x2048 1) (v61 : Vec Ideal S1x1 .f32) (j : S1x1.Idx) :
    k0_pay3 (F := Ideal) v24 v34 v36 v37 v39 v61 j
      = v61 j + ∑ r : Fin 2048, Scalar.select (k0_pay2 (F := Ideal) v24 v37 v39 (ix2 (0 : Fin 1) r))
          (v34 (ix2 (0 : Fin 1) r) - ∑ k : Fin 7, Scalar.select (k0_pay1 v37 v39 (ix2 k r)) (v36 (ix2 k r)) Cert.Spec.zero)
          Cert.Spec.zero := by
  obtain ⟨p, q, rfl⟩ : ∃ (p : Fin 1) (q : Fin 1), j = ix2 p q := ⟨j 0, j 1, eq_ix2 j⟩
  unfold k0_pay3
  refine (congrFun (shapeCast_self _ _) (ix2 p q)).trans ?_
  refine congrArg (fun z => v61 (ix2 p q) + z) ?_
  refine (shapeCast_a_1a_apply _ _ p q).trans ((sum_samples _ _ _ _ q).trans ?_)
  refine Finset.sum_congr rfl fun r _ => ?_
  exact congrArg (fun z => Scalar.select (k0_pay2 (F := Ideal) v24 v37 v39 (ix2 (0 : Fin 1) r))
    (v34 (ix2 (0 : Fin 1) r) - z) Cert.Spec.zero) (selsum_at _ _ _ _ _ _ r)

/-- The stored count accumulator over any operands: the old value plus the number of counted samples. -/
theorem pay4_gen (v24 : IVec S1x2048 1) (v37 v39 : IVec S7x2048 1) (v66 : Vec Ideal S1x1 .f32) (j : S1x1.Idx) :
    k0_pay4 (F := Ideal) v24 v37 v39 v66 j
      = v66 j + ∑ r : Fin 2048, Cert.KForm.flag (k0_pay2 (F := Ideal) v24 v37 v39 (ix2 (0 : Fin 1) r)) := by
  obtain ⟨p, q, rfl⟩ : ∃ (p : Fin 1) (q : Fin 1), j = ix2 p q := ⟨j 0, j 1, eq_ix2 j⟩
  unfold k0_pay4
  refine (congrFun (shapeCast_self _ _) (ix2 p q)).trans ?_
  refine congrArg (fun z => v66 (ix2 p q) + z) ?_
  refine (shapeCast_a_1a_apply _ _ p q).trans ((sum_samples _ _ _ _ q).trans ?_)
  exact Finset.sum_congr rfl fun r _ => rfl

/-- Row `k + 1` of sample `r` is of another class and closer than the threshold. -/
theorem neg_at (x0 : Vec Ideal S8x2048x128 .f32) (x1 : Vec Ideal S8x2048 .i32) (k : Fin 7) (r : Fin 2048) :
    k0_pay1 (k0_pay14 (F := Ideal) x1) (k0_pay15 (F := Ideal) x0 x1) (ix2 k r)
      = Cert.KForm.neg (rows x0 r) (labels x1 r) k := by
  unfold k0_pay1 Cert.KForm.neg
  show IntOp.andi (k0_pay14 (F := Ideal) x1 (ix2 k r)) (k0_pay15 (F := Ideal) x0 x1 (ix2 k r)) = _
  rw [pay14_at, pay15_at]

/-- Sample `r` counts. -/
theorem incl_at (x0 : Vec Ideal S8x2048x128 .f32) (x1 : Vec Ideal S8x2048 .i32) (r : Fin 2048) :
    k0_pay2 (F := Ideal) (k0_pay11 (F := Ideal) x1) (k0_pay14 (F := Ideal) x1) (k0_pay15 (F := Ideal) x0 x1) (ix2 (0 : Fin 1) r)
      = Cert.KForm.incl (rows x0 r) (labels x1 r) := by
  refine (pay2_gen _ _ _ r).trans ?_
  unfold Cert.KForm.incl Cert.KForm.anyNeg
  rw [pay11_at]
  exact congrArg (fun p => IntOp.ori (Cert.KForm.anySame (labels x1 r)) (Ideal.cmp .ogt p Cert.Spec.zero))
    (Finset.sum_congr rfl fun k _ => congrArg Cert.KForm.flag (neg_at x0 x1 k r))

/-- The loss accumulator after a tile: the old value plus the tile's counted losses. -/
theorem tile_loss (x0 : Vec Ideal S8x2048x128 .f32) (x1 : Vec Ideal S8x2048 .i32) (acc : Vec Ideal S1x1 .f32) (j : S1x1.Idx) :
    k0_pay3 (F := Ideal) (k0_pay11 (F := Ideal) x1) (k0_pay12 x0 x1) (k0_pay13 x0 x1) (k0_pay14 (F := Ideal) x1)
        (k0_pay15 x0 x1) acc j
      = acc j + ∑ r : Fin 2048, Cert.KForm.contrib (rows x0 r) (labels x1 r) := by
  refine (pay3_gen _ _ _ _ _ _ j).trans (congrArg (fun z => acc j + z) (Finset.sum_congr rfl fun r _ => ?_))
  unfold Cert.KForm.contrib Cert.KForm.loss Cert.KForm.negSum
  rw [incl_at, pay12_at]
  exact congrArg (fun z => Scalar.select (Cert.KForm.incl (rows x0 r) (labels x1 r))
      (Cert.KForm.sameSum (rows x0 r) (labels x1 r) - z) Cert.Spec.zero)
    (Finset.sum_congr rfl fun k _ => by rw [neg_at, pay13_at])

/-- The count accumulator after a tile: the old value plus the number of the tile's counted samples. -/
theorem tile_count (x0 : Vec Ideal S8x2048x128 .f32) (x1 : Vec Ideal S8x2048 .i32) (acc : Vec Ideal S1x1 .f32) (j : S1x1.Idx) :
    k0_pay4 (F := Ideal) (k0_pay11 (F := Ideal) x1) (k0_pay14 (F := Ideal) x1) (k0_pay15 x0 x1) acc j
      = acc j + ∑ r : Fin 2048, Cert.KForm.count (rows x0 r) (labels x1 r) := by
  refine (pay4_gen _ _ _ _ j).trans (congrArg (fun z => acc j + z) (Finset.sum_congr rfl fun r _ => ?_))
  unfold Cert.KForm.count
  rw [incl_at]

/-! ## The first grid point's zeros and the last one's copies -/

/-- The two accumulators start from zero. -/
theorem pay7_eq : k0_pay7 (F := Ideal) = fun _ => Cert.Spec.zero := by
  unfold k0_pay7
  exact shapeCast_self _ _

theorem pay8_eq : k0_pay8 (F := Ideal) = fun _ => Cert.Spec.zero := by
  unfold k0_pay8
  exact shapeCast_self _ _

/-- A `1 × 1` value copied along the 128 lanes of a `1 × 1 × 128` block. -/
theorem lanes_at (v : Vec Ideal S1x1 .f32) (h1 : S1x1.ShapeCasts S1x1x1) (h2 : S1x1x1.ShapeCasts S1x1x1)
    (h3 : S1x1x1.Broadcasts S1x1x128) (y : S1x1x128.Idx) :
    broadcastTo S1x1x128 (shapeCast S1x1x1 (shapeCast S1x1x1 v h1) h2) h3 y = v (ix2 (0 : Fin 1) (0 : Fin 1)) := by
  refine (broadcastTo_apply _ h3 y (ix3 (0 : Fin 1) (0 : Fin 1) (0 : Fin 1)) fun ax => ?_).trans ?_
  · match ax with
    | ⟨0, _⟩ => rfl
    | ⟨1, _⟩ => rfl
    | ⟨2, _⟩ => rfl
  · refine (congrFun (shapeCast_self _ h2) _).trans ?_
    exact shapeCast_ab_1ab_apply v h1 0 0 0

theorem pay5_at (v : Vec Ideal S1x1 .f32) (y : S1x1x128.Idx) : k0_pay5 (F := Ideal) v y = v (ix2 (0 : Fin 1) (0 : Fin 1)) := by
  unfold k0_pay5
  exact lanes_at v _ _ _ y

theorem pay6_at (v : Vec Ideal S1x1 .f32) (y : S1x1x128.Idx) : k0_pay6 (F := Ideal) v y = v (ix2 (0 : Fin 1) (0 : Fin 1)) := by
  unfold k0_pay6
  exact lanes_at v _ _ _ y

end Cert.Tile

end
-- ==== Proof.KValue.lean ====
/-
  The kernel's two output arrays after the run, and the host lines that follow.
  Each core writes its two blocks once, after its last tile; so row `k` of the loss array is, in every
  lane, zero plus the sum of core `k`'s 32 tile sums, and likewise the count array. The host lines take
  lane 0 of each row, add the two rows, and divide the loss by the count, at least one.
-/
import proofs.«114061_j22462678958338_2_alg».proof.Proof.Accum
import proofs.«114061_j22462678958338_2_alg».proof.Proof.Tile
import Idealize.ShloMosaic.Lib.StableHlo.Run
import Idealize.ShloMosaic.PureOps.Ideal.Laws

noncomputable section

open scoped BigOperators

namespace Cert.KernelIdeal.KValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Pieces Cert.KernelIdeal.Accum

/-- The body's arithmetic read at an index. -/
theorem tileFacts : TileFacts :=
  ⟨fun x0 x1 acc j => Cert.Tile.tile_loss x0 x1 acc j, fun x0 x1 acc j => Cert.Tile.tile_count x0 x1 acc j,
    fun j => congrFun Cert.Tile.pay7_eq j, fun j => congrFun Cert.Tile.pay8_eq j,
    fun v y => Cert.Tile.pay5_at v y, fun v y => Cert.Tile.pay6_at v y⟩

variable (m : (ℓ : Loc nD τ sig) → Buf (Elt Ideal) ℓ) (ρ : Dev nD → PrngReg) (c : Dev nD)

/-- What the loss array and the count array end holding: row `k`, every lane, core `k`'s total. -/
def outL (i : S2x1x128.Idx) : EReal := Cert.Spec.zero + ∑ s ∈ Finset.range 32, lossAt m c (32 * (i 0).val + s)
def outC (i : S2x1x128.Idx) : EReal := Cert.Spec.zero + ∑ s ∈ Finset.range 32, countAt m c (32 * (i 0).val + s)

/-- The printed index maps over the grid: an output block is its core's row; an input block is tile `t`. -/
theorem idx_facts : ∀ t : Fin cfg0.N, win0_2.index t (0 : Fin 3) = t.val / 32 ∧ win0_2.index t (1 : Fin 3) = 0
    ∧ win0_2.index t (2 : Fin 3) = 0 ∧ win0_3.index t (0 : Fin 3) = t.val / 32 ∧ win0_3.index t (1 : Fin 3) = 0
    ∧ win0_3.index t (2 : Fin 3) = 0 ∧ win0_0.index t (0 : Fin 3) = 0 ∧ win0_0.index t (1 : Fin 3) = t.val
    ∧ win0_0.index t (2 : Fin 3) = 0 ∧ win0_1.index t (0 : Fin 2) = 0 ∧ win0_1.index t (1 : Fin 2) = t.val :=
  (by decide +kernel : ∀ t : Fin grid0.N, _)

/-- What a core's last tile writes back is its block of `outL`. -/
theorem flushed2_eq (t : Fin cfg0.N) (hf : (cfg0.win 2).flush t = true) :
    (dats m 0 c).flushed 2 t = ((cfg0.win 2).blk t).view.read (Elt Ideal) (outL m c) := by
  have ht : t.val % 32 = 31 := (flush0_2 t).mp hf
  show (cfg0.win 2).cut (grid0.coords t) ((dats m 0 c).after 2 t) = _
  rw [after0_2, out2_eq m c t ht]
  funext y
  show k0_pay5 (F := Ideal) (accL m c t.val t.isLt) y = outL m c (((cfg0.win 2).blk t).view.emb y)
  rw [tileFacts.lanes5, accL_flush m c tileFacts t ht]
  unfold outL
  have e0 : ((((cfg0.win 2).blk t).view.emb y) 0).val = t.val / 32 := by
    show win0_2.index t (0 : Fin 3) * 1 + 1 * (y 0).val = _
    have h1 := (idx_facts t).1
    have hy : (y 0).val < 1 := (y 0).isLt
    omega
  rw [e0]

theorem flushed3_eq (t : Fin cfg0.N) (hf : (cfg0.win 3).flush t = true) :
    (dats m 0 c).flushed 3 t = ((cfg0.win 3).blk t).view.read (Elt Ideal) (outC m c) := by
  have ht : t.val % 32 = 31 := (flush0_3 t).mp hf
  show (cfg0.win 3).cut (grid0.coords t) ((dats m 0 c).after 3 t) = _
  rw [after0_3, out3_eq m c t ht]
  funext y
  show k0_pay6 (F := Ideal) (accC m c t.val t.isLt) y = outC m c (((cfg0.win 3).blk t).view.emb y)
  rw [tileFacts.lanes6, accC_flush m c tileFacts t ht]
  unfold outC
  have e0 : ((((cfg0.win 3).blk t).view.emb y) 0).val = t.val / 32 := by
    show win0_3.index t (0 : Fin 3) * 1 + 1 * (y 0).val = _
    have h1 := (idx_facts t).2.2.2.1
    have hy : (y 0).val < 1 := (y 0).isLt
    omega
  rw [e0]

/-- An index is in a point's block iff each coordinate is in the block's range. -/
theorem mem_blk2 (t : Fin cfg0.N) (i : S2x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0_0).slice (win0_2.rect t)).set ↔ _
  rw [View.set_slice_whole, Rect.mem_set_unit]
  exact Iff.rfl
theorem mem_blk3 (t : Fin cfg0.N) (i : S2x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0_1).slice (win0_3.rect t)).set ↔ _
  rw [View.set_slice_whole, Rect.mem_set_unit]
  exact Iff.rfl

/-- Every index of an output array is in the block its core's last tile writes back. -/
theorem cover2 (i : S2x1x128.Idx) : ∃ t : Fin cfg0.N, (cfg0.win 2).flush t = true ∧ i ∈ ((cfg0.win 2).blk t).view.set := by
  have hN : cfg0.N = 64 := N_0
  have h0 : (i 0).val < 2 := (i 0).isLt
  have h1 : (i 1).val < 1 := (i 1).isLt
  have h2 : (i 2).val < 128 := (i 2).isLt
  have hlt : 32 * (i 0).val + 31 < cfg0.N := by omega
  refine ⟨⟨32 * (i 0).val + 31, hlt⟩, (flush0_2 _).mpr (by show (32 * (i 0).val + 31) % 32 = 31; omega), ?_⟩
  rw [mem_blk2]
  obtain ⟨e0, e1, e2, -⟩ := idx_facts ⟨32 * (i 0).val + 31, hlt⟩
  have e0' : win0_2.index ⟨32 * (i 0).val + 31, hlt⟩ (0 : Fin 3) = (32 * (i 0).val + 31) / 32 := e0
  intro a
  match a with
  | ⟨0, _⟩ => show win0_2.index ⟨32 * (i 0).val + 31, hlt⟩ (0 : Fin 3) * 1 ≤ (i 0).val ∧ (i 0).val < win0_2.index ⟨32 * (i 0).val + 31, hlt⟩ (0 : Fin 3) * 1 + 1; omega
  | ⟨1, _⟩ => show win0_2.index ⟨32 * (i 0).val + 31, hlt⟩ (1 : Fin 3) * 1 ≤ (i 1).val ∧ (i 1).val < win0_2.index ⟨32 * (i 0).val + 31, hlt⟩ (1 : Fin 3) * 1 + 1; omega
  | ⟨2, _⟩ => show win0_2.index ⟨32 * (i 0).val + 31, hlt⟩ (2 : Fin 3) * 128 ≤ (i 2).val ∧ (i 2).val < win0_2.index ⟨32 * (i 0).val + 31, hlt⟩ (2 : Fin 3) * 128 + 128; omega

theorem cover3 (i : S2x1x128.Idx) : ∃ t : Fin cfg0.N, (cfg0.win 3).flush t = true ∧ i ∈ ((cfg0.win 3).blk t).view.set := by
  have hN : cfg0.N = 64 := N_0
  have h0 : (i 0).val < 2 := (i 0).isLt
  have h1 : (i 1).val < 1 := (i 1).isLt
  have h2 : (i 2).val < 128 := (i 2).isLt
  have hlt : 32 * (i 0).val + 31 < cfg0.N := by omega
  refine ⟨⟨32 * (i 0).val + 31, hlt⟩, (flush0_3 _).mpr (by show (32 * (i 0).val + 31) % 32 = 31; omega), ?_⟩
  rw [mem_blk3]
  obtain ⟨-, -, -, e0, e1, e2, -⟩ := idx_facts ⟨32 * (i 0).val + 31, hlt⟩
  have e0' : win0_3.index ⟨32 * (i 0).val + 31, hlt⟩ (0 : Fin 3) = (32 * (i 0).val + 31) / 32 := e0
  intro a
  match a with
  | ⟨0, _⟩ => show win0_3.index ⟨32 * (i 0).val + 31, hlt⟩ (0 : Fin 3) * 1 ≤ (i 0).val ∧ (i 0).val < win0_3.index ⟨32 * (i 0).val + 31, hlt⟩ (0 : Fin 3) * 1 + 1; omega
  | ⟨1, _⟩ => show win0_3.index ⟨32 * (i 0).val + 31, hlt⟩ (1 : Fin 3) * 1 ≤ (i 1).val ∧ (i 1).val < win0_3.index ⟨32 * (i 0).val + 31, hlt⟩ (1 : Fin 3) * 1 + 1; omega
  | ⟨2, _⟩ => show win0_3.index ⟨32 * (i 0).val + 31, hlt⟩ (2 : Fin 3) * 128 ≤ (i 2).val ∧ (i 2).val < win0_3.index ⟨32 * (i 0).val + 31, hlt⟩ (2 : Fin 3) * 128 + 128; omega

/-- The two output arrays after the run. -/
theorem final2 : (dats m 0 c).arrAt 2 cfg0.N = outL m c :=
  (dats m 0 c).arrAt_eq_of_cover 2 (outL m c) (fun t hf => flushed2_eq m c t hf) cover2
theorem final3 : (dats m 0 c).arrAt 3 cfg0.N = outC m c :=
  (dats m 0 c).arrAt_eq_of_cover 3 (outC m c) (fun t hf => flushed3_eq m c t hf) cover3

/-! ## The host lines after the region -/

/-- Lane 0 of each row of the two arrays, the rows added, the loss divided by the count (at least one). -/
def tail {F : FTy → Type} [FloatOps F] (o2 o3 : (⟨S2x1x128, .f32⟩ : BufTy).Contents (Elt F)) : (⟨S_, .f32⟩ : BufTy).Contents (Elt F) :=
  Host.divf
    (Host.reduceAdd (shapeCast S2 (extractStridedSlice S2x1x1 ![0, 0, 0] o2 slices_S2x1x128_S2x1x1_0_0_0) shapeCasts_S2x1x1_S2)
      (constant S_ .f32 0x00000000#32) reducesTo_S2_S_d0 h_S_)
    (maximumf
      (Host.reduceAdd (shapeCast S2 (extractStridedSlice S2x1x1 ![0, 0, 0] o3 slices_S2x1x128_S2x1x1_0_0_0) shapeCasts_S2x1x1_S2)
        (constant S_ .f32 0x00000000#32) reducesTo_S2_S_d0 h_S_)
      (constant S_ .f32 0x3F800000#32))

/-- The result buffer after the host lines is that function of the two output arrays after the region. -/
theorem tail_eq : Pipeline.afterTail₀ cfgs (dats m) 0 (V0 m) [hostOps1] c main_v8
    = tail ((dats m 0 c).arrAt 2 cfg0.N) ((dats m 0 c).arrAt 3 cfg0.N) := by
  unfold Pipeline.afterTail₀
  show StableHlo.after hostOps1 _ (Proc.devRef .tc main_v8) = _
  after_results
  have e2 : Pipeline.withArrays (cfgs 0).spec c (V0 m c) (fun w => (dats m 0 c).arrAt w (cfgs 0).N) (Proc.devRef .tc main_v0_0)
      = (dats m 0 c).arrAt 2 cfg0.N := Pipeline.withArrays_arr (cfgs 0).spec launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr (cfgs 0).spec launch0.win.arr_inj c _ _ 3
  rw [e2, e3]
  rfl

/-- Lane 0 of row `k`, through the slice and the reshape. -/
theorem col_apply {α : Type} (o : S2x1x128.Idx → α) (k : Fin 2) :
    shapeCast S2 (extractStridedSlice S2x1x1 ![0, 0, 0] o slices_S2x1x128_S2x1x1_0_0_0) shapeCasts_S2x1x1_S2 (ix1 k)
      = o (ix3 k (0 : Fin 1) (0 : Fin 128)) := by
  refine (shapeCast_apply _ shapeCasts_S2x1x1_S2 (ix1 k) (ix3 k (0 : Fin 1) (0 : Fin 1)) ?_).trans ?_
  · rw [Shape.rowMajor_val_three, Shape.rowMajor_val_one]
    show (k.val * 1 + 0) * 1 + 0 = k.val
    omega
  · exact extractStridedSlice_apply ![0, 0, 0] o slices_S2x1x128_S2x1x1_0_0_0 (ix3 k (0 : Fin 1) (0 : Fin 1)) (ix3 k (0 : Fin 1) (0 : Fin 128))
      (fun a => by match a with
        | ⟨0, _⟩ => show k.val = 0 + k.val; omega
        | ⟨1, _⟩ => show (0 : ℕ) = 0 + 0; rfl
        | ⟨2, _⟩ => show (0 : ℕ) = 0 + 0; rfl)

/-- The host lines at the ideal values: the two rows' lane-0 entries added from zero, and the quotient. -/
theorem tail_apply (o2 o3 : S2x1x128.Idx → EReal) (j : S_.Idx) :
    tail (F := Ideal) o2 o3 j
      = Ideal.div (Cert.Spec.zero + ∑ k : Fin 2, o2 (ix3 k (0 : Fin 1) (0 : Fin 128)))
          (max (Cert.Spec.zero + ∑ k : Fin 2, o3 (ix3 k (0 : Fin 1) (0 : Fin 128))) Cert.Spec.one) := by
  have hs : ∀ o : S2x1x128.Idx → EReal,
      Host.reduceAdd (F := Ideal) (shapeCast S2 (extractStridedSlice S2x1x1 ![0, 0, 0] o slices_S2x1x128_S2x1x1_0_0_0) shapeCasts_S2x1x1_S2)
          (constant S_ .f32 0x00000000#32) reducesTo_S2_S_d0 h_S_ j
        = Cert.Spec.zero + ∑ k : Fin 2, o (ix3 k (0 : Fin 1) (0 : Fin 128)) := by
    intro o
    simp only [Host.reduceAdd, Ideal.hostReduceAdd_def]
    rw [Ideal.hostReduceAdd_total reducesTo_S2_S_d0 (fun b => b.elim0)]
    refine congrArg (_ + ·) ?_
    refine Fintype.sum_equiv ⟨fun i => i 0, ix1, fun i => (eq_ix1 i).symm, fun _ => rfl⟩ _ _ (fun i => ?_)
    obtain ⟨k, rfl⟩ : ∃ k : Fin 2, i = ix1 k := ⟨i 0, eq_ix1 i⟩
    exact col_apply o k
  show Ideal.div _ (max _ _) = _
  rw [hs o2, hs o3]
  rfl

end Cert.KernelIdeal.KValue

end
-- ==== Proof.KAlgebra.lean ====
/-
  The kernel's spelling of one sample and the specification's agree, quantity by quantity.
  Five facts carry it: the square of a difference does not depend on the order of subtraction;
  the word of 0 is 0, so a sum started from it is the bare sum; a sum of 0/1 flags is positive
  exactly when a fold of "or" over the same one-bit words is 1; exclusive-or with 1 is "not"
  on one bit; and a one-bit word widened and read as a signed integer is its value as a natural number.
-/
import proofs.«114061_j22462678958338_2_alg».proof.Proof.KForm

noncomputable section

open scoped BigOperators

namespace Cert.KAlgebra

open Idealize.ShloMosaic Cert.Spec

/-! ### Extended reals -/

/-- The square of a difference does not depend on the order of subtraction, infinities included:
    when one of the two is infinite and the other is not, the differences are ⊤ and ⊥, each of square ⊤;
    when both are the same infinity both differences are ⊥; opposite infinities give ⊤ and ⊥ again. -/
theorem sq_sub_comm (a b : EReal) : (a - b) * (a - b) = (b - a) * (b - a) := by
  induction a using EReal.rec <;> induction b using EReal.rec
  all_goals first
    | (rw [← EReal.coe_sub, ← EReal.coe_sub, ← EReal.coe_mul, ← EReal.coe_mul]; congr 1; ring)
    | simp

/-- The word of zero is the number 0. -/
theorem zero_eq : (Spec.zero : EReal) = 0 := Ideal.ofBits_zero_f32

/-- The inclusion of the reals commutes with finite sums. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- "Greater than" as a one-bit word is 1 exactly when the inequality holds. -/
theorem cmp_ogt_eq_one (x y : EReal) : Ideal.cmp .ogt x y = 1#1 ↔ y < x := by
  show BitVec.ofBool (decide (y < x)) = 1#1 ↔ y < x
  by_cases h : y < x <;> simp [h]

/-! ### One-bit words -/

theorem bv1_cases (c : BitVec 1) : c = 0#1 ∨ c = 1#1 := by revert c; decide

/-- Two one-bit words that are 1 together are equal. -/
theorem bv1_ext (x y : BitVec 1) (h : x = 1#1 ↔ y = 1#1) : x = y := by
  revert x y; decide

theorem ori_eq_one (x y : BitVec 1) : IntOp.ori x y = 1#1 ↔ x = 1#1 ∨ y = 1#1 := by
  revert x y; decide

/-- Exclusive-or with 1 is "not" on one bit. -/
theorem xori_one (c : BitVec 1) : IntOp.xori c 1#1 = ~~~c := by
  revert c; decide

theorem toNat_pos_iff (c : BitVec 1) : 0 < c.toNat ↔ c = 1#1 := by
  revert c; decide

/-- A one-bit word widened to 32 bits and read as a signed integer is its value as a natural number. -/
theorem setWidth_toInt (c : BitVec 1) : (c.setWidth 32).toInt = (c.toNat : ℤ) := by
  revert c; decide

theorem flag_eq (c : BitVec 1) : KForm.flag c = (((c.toNat : ℝ)) : EReal) := by
  unfold KForm.flag
  rw [setWidth_toInt, Int.cast_natCast]

/-- A fold of "or" from 0 over one-bit words is 1 exactly when one of them is. -/
theorem fold_ori_eq_one {ι : Type*} (s : Finset ι) (c : ι → BitVec 1) :
    s.fold IntOp.ori 0#1 c = 1#1 ↔ ∃ k ∈ s, c k = 1#1 := by
  classical
  induction s using Finset.induction_on with
  | empty => simp
  | insert a s ha ih =>
    rw [Finset.fold_insert ha, ori_eq_one, ih]
    simp [Finset.mem_insert]

/-- A sum of 0/1 flags is positive exactly when one of the words is 1. -/
theorem sum_flag_pos {ι : Type*} (s : Finset ι) (c : ι → BitVec 1) :
    (0 : EReal) < ∑ k ∈ s, KForm.flag (c k) ↔ ∃ k ∈ s, c k = 1#1 := by
  have h : ∑ k ∈ s, KForm.flag (c k) = (((∑ k ∈ s, (c k).toNat : ℕ) : ℝ) : EReal) := by
    rw [Nat.cast_sum, ← coe_sum]
    exact Finset.sum_congr rfl (fun k _ => flag_eq (c k))
  rw [h, ← EReal.coe_zero, EReal.coe_lt_coe_iff, Nat.cast_pos, Finset.sum_pos_iff]
  simp only [toNat_pos_iff]

/-- "Some flag is set", told by the sign of the sum of the flags or by a fold of "or": the same word. -/
theorem any_eq {ι : Type*} (s : Finset ι) (c : ι → BitVec 1) :
    Ideal.cmp .ogt (∑ k ∈ s, KForm.flag (c k)) Spec.zero = s.fold IntOp.ori 0#1 c := by
  apply bv1_ext
  rw [cmp_ogt_eq_one, zero_eq, sum_flag_pos, fold_ori_eq_one]

/-! ### The quantities of one sample -/

section Sample

variable (e : Fin 8 → Fin 128 → EReal) (t : Fin 8 → BitVec 32)

theorem dist_eq (k : Fin 7) : KForm.dist e k = Spec.dist e k := by
  unfold KForm.dist Spec.dist
  rw [zero_eq, zero_add]
  exact Finset.sum_congr rfl (fun l _ => sq_sub_comm _ _)

theorem same_eq (k : Fin 7) : KForm.same t k = Spec.same t k := rfl

theorem anySame_eq : KForm.anySame t = Spec.anySame t := by
  unfold KForm.anySame Spec.anySame
  exact any_eq Finset.univ (KForm.same t)

theorem maxSame_eq : KForm.maxSame e t = Spec.maxSame e t := by
  unfold KForm.maxSame Spec.maxSame
  simp only [same_eq, dist_eq]

theorem alpha_eq : KForm.alpha e t = Spec.alpha e t := by
  unfold KForm.alpha Spec.alpha
  rw [anySame_eq, maxSame_eq]

theorem sameSum_eq : KForm.sameSum e t = Spec.sameSum e t := by
  unfold KForm.sameSum Spec.sameSum
  rw [zero_eq, zero_add]
  simp only [same_eq, dist_eq]

theorem margin_eq (k : Fin 7) : KForm.margin e t k = Spec.margin e t k := by
  unfold KForm.margin Spec.margin
  rw [dist_eq, alpha_eq]

theorem neg_eq (k : Fin 7) : KForm.neg e t k = Spec.neg e t k := by
  unfold KForm.neg Spec.neg
  rw [xori_one, margin_eq, same_eq]

theorem negSum_eq : KForm.negSum e t = Spec.negSum e t := by
  unfold KForm.negSum Spec.negSum
  rw [zero_eq, zero_add]
  simp only [neg_eq, margin_eq]

theorem anyNeg_eq : KForm.anyNeg e t = Spec.anyNeg e t := by
  unfold KForm.anyNeg Spec.anyNeg
  rw [any_eq]
  simp only [neg_eq]

theorem incl_eq : KForm.incl e t = Spec.incl e t := by
  unfold KForm.incl Spec.incl
  rw [anySame_eq, anyNeg_eq]

theorem loss_eq : KForm.loss e t = Spec.loss e t := by
  unfold KForm.loss Spec.loss
  rw [sameSum_eq, negSum_eq]

/-- The sample's share of the numerator, in either spelling. -/
theorem contrib_eq : KForm.contrib e t = Spec.contrib e t := by
  unfold KForm.contrib Spec.contrib
  rw [incl_eq, loss_eq]

/-- The sample's share of the denominator, in either spelling. -/
theorem count_eq : KForm.count e t = Spec.count e t := by
  unfold KForm.count Spec.count
  rw [incl_eq, flag_eq]

end Sample

end Cert.KAlgebra

end
-- ==== Proof.KTotal.lean ====
/-
  The kernel's result as the specification's. A tile's two blocks are 2048 consecutive samples of the
  argument arrays; a tile's sums are therefore the specification's per-sample terms summed over those
  samples; the two cores' 32 tiles each are the 64 tiles in order, and 64 tiles of 2048 samples are the
  131072 samples. The sums are over extended reals, where addition is commutative and associative, so the
  regrouping needs nothing of the values.
-/
import proofs.«114061_j22462678958338_2_alg».proof.Proof.KValue
import proofs.«114061_j22462678958338_2_alg».proof.Proof.KAlgebra

noncomputable section

open scoped BigOperators

namespace Cert.KernelIdeal.KTotal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum Cert.KernelIdeal.KValue

/-! ## Regrouping sums over naturals -/

/-- `m` runs of `n` consecutive terms are the first `n * m` terms. -/
theorem sum_runs {M : Type*} [AddCommMonoid M] (f : ℕ → M) (n : ℕ) :
    ∀ m : ℕ, ∑ t ∈ Finset.range m, ∑ r ∈ Finset.range n, f (n * t + r) = ∑ b ∈ Finset.range (n * m), f b
  | 0 => by simp
  | m + 1 => by rw [Finset.sum_range_succ, sum_runs f n m, Nat.mul_succ, Finset.sum_range_add]

/-- The two cores' totals, each zero plus its 32 tiles, are the 64 tiles in order. -/
theorem sum_cores (f : ℕ → EReal) :
    ∑ k : Fin 2, (Cert.Spec.zero + ∑ s ∈ Finset.range 32, f (32 * k.val + s)) = ∑ n ∈ Finset.range 64, f n := by
  rw [Fin.sum_univ_two, Cert.KAlgebra.zero_eq, zero_add, zero_add, show (64 : ℕ) = 32 + 32 from rfl, Finset.sum_range_add]
  simp only [Fin.val_zero, Fin.val_one, Nat.mul_zero, Nat.zero_add, Nat.mul_one]

variable (m : (ℓ : Loc nD τ sig) → Buf (Elt Ideal) ℓ) (ρ : Dev nD → PrngReg) (c : Dev nD)

/-- The two argument arrays. -/
abbrev Emb : (⟨3, ![8, 131072, 128]⟩ : Shape).Idx → EReal := m ((c : Thread nD τ).loc main_arg0)
abbrev Lab : (⟨2, ![8, 131072]⟩ : Shape).Idx → BitVec 32 := m ((c : Thread nD τ).loc main_arg1)

/-- The specification's per-sample terms as functions of every natural (zero past the last sample). -/
def contribAt (b : ℕ) : EReal :=
  if h : b < 131072 then Cert.Spec.contrib (Cert.Spec.rowsAt (Emb m c) ⟨b, h⟩) (Cert.Spec.labelsAt (Lab m c) ⟨b, h⟩) else 0
def countOf (b : ℕ) : EReal :=
  if h : b < 131072 then Cert.Spec.count (Cert.Spec.rowsAt (Emb m c) ⟨b, h⟩) (Cert.Spec.labelsAt (Lab m c) ⟨b, h⟩) else 0

/-- Sample `r` of tile `n` is sample `2048 n + r` of the arrays. -/
theorem rows_blk (n : ℕ) (hn : n < cfg0.N) (r : Fin 2048) (hb : 2048 * n + r.val < 131072) :
    rows (blk0 m c n hn) r = Cert.Spec.rowsAt (Emb m c) ⟨2048 * n + r.val, hb⟩ := by
  funext k l
  show iblk m c 0 ⟨n, hn⟩ (ix3 k r l) = m ((c : Thread nD τ).loc main_arg0) (ix3 k ⟨2048 * n + r.val, hb⟩ l)
  unfold iblk
  rw [View.read_apply]
  show V m c main_arg0 _ = m ((c : Thread nD τ).loc main_arg0) _
  rw [V_main_arg0]
  refine congrArg (m ((c : Thread nD τ).loc main_arg0)) (funext fun a => Fin.ext ?_)
  obtain ⟨-, -, -, -, -, -, e0, e1, e2, -⟩ := idx_facts ⟨n, hn⟩
  have e1' : win0_0.index ⟨n, hn⟩ (1 : Fin 3) = n := e1
  match a with
  | ⟨0, _⟩ => show win0_0.index ⟨n, hn⟩ (0 : Fin 3) * 8 + 1 * k.val = k.val; omega
  | ⟨1, _⟩ => show win0_0.index ⟨n, hn⟩ (1 : Fin 3) * 2048 + 1 * r.val = 2048 * n + r.val; omega
  | ⟨2, _⟩ => show win0_0.index ⟨n, hn⟩ (2 : Fin 3) * 128 + 1 * l.val = l.val; omega

theorem labels_blk (n : ℕ) (hn : n < cfg0.N) (r : Fin 2048) (hb : 2048 * n + r.val < 131072) :
    labels (blk1 m c n hn) r = Cert.Spec.labelsAt (Lab m c) ⟨2048 * n + r.val, hb⟩ := by
  funext k
  show iblk m c 1 ⟨n, hn⟩ (ix2 k r) = m ((c : Thread nD τ).loc main_arg1) (ix2 k ⟨2048 * n + r.val, hb⟩)
  unfold iblk
  rw [View.read_apply]
  show V m c main_arg1 _ = m ((c : Thread nD τ).loc main_arg1) _
  rw [V_main_arg1]
  refine congrArg (m ((c : Thread nD τ).loc main_arg1)) (funext fun a => Fin.ext ?_)
  obtain ⟨-, -, -, -, -, -, -, -, -, e0, e1⟩ := idx_facts ⟨n, hn⟩
  have e1' : win0_1.index ⟨n, hn⟩ (1 : Fin 2) = n := e1
  match a with
  | ⟨0, _⟩ => show win0_1.index ⟨n, hn⟩ (0 : Fin 2) * 8 + 1 * k.val = k.val; omega
  | ⟨1, _⟩ => show win0_1.index ⟨n, hn⟩ (1 : Fin 2) * 2048 + 1 * r.val = 2048 * n + r.val; omega

/-- A tile's loss sum and count are the per-sample terms over its 2048 samples. -/
theorem lossAt_eq (n : ℕ) (hn : n < 64) : lossAt m c n = ∑ r ∈ Finset.range 2048, contribAt m c (2048 * n + r) := by
  have hN : cfg0.N = 64 := N_0
  have hn' : n < cfg0.N := by omega
  unfold lossAt
  rw [dif_pos hn', Finset.sum_range]
  unfold tileLoss
  refine Finset.sum_congr rfl fun r _ => ?_
  have hb : 2048 * n + r.val < 131072 := by have := r.isLt; omega
  unfold contribAt
  rw [dif_pos hb, Cert.KAlgebra.contrib_eq, rows_blk m c n hn' r hb, labels_blk m c n hn' r hb]

theorem countAt_eq (n : ℕ) (hn : n < 64) : countAt m c n = ∑ r ∈ Finset.range 2048, countOf m c (2048 * n + r) := by
  have hN : cfg0.N = 64 := N_0
  have hn' : n < cfg0.N := by omega
  unfold countAt
  rw [dif_pos hn', Finset.sum_range]
  unfold tileCount
  refine Finset.sum_congr rfl fun r _ => ?_
  have hb : 2048 * n + r.val < 131072 := by have := r.isLt; omega
  unfold countOf
  rw [dif_pos hb, Cert.KAlgebra.count_eq, rows_blk m c n hn' r hb, labels_blk m c n hn' r hb]

/-- The two rows' lane-0 entries of the loss array add to the specification's numerator sum; likewise the count. -/
theorem lossTotal : ∑ k : Fin 2, outL m c (ix3 k (0 : Fin 1) (0 : Fin 128)) = Cert.Spec.lossSum (Emb m c) (Lab m c) := by
  have e : ∀ k : Fin 2, outL m c (ix3 k (0 : Fin 1) (0 : Fin 128)) = Cert.Spec.zero + ∑ s ∈ Finset.range 32, lossAt m c (32 * k.val + s) := fun k => rfl
  rw [Finset.sum_congr rfl fun k _ => e k, sum_cores (lossAt m c),
    Finset.sum_congr rfl fun n hn => lossAt_eq m c n (Finset.mem_range.mp hn), sum_runs (contribAt m c) 2048 64]
  unfold Cert.Spec.lossSum
  rw [show (2048 * 64 : ℕ) = 131072 from rfl, Finset.sum_range]
  refine Finset.sum_congr rfl fun b _ => ?_
  unfold contribAt
  rw [dif_pos b.isLt]

theorem countTotal : ∑ k : Fin 2, outC m c (ix3 k (0 : Fin 1) (0 : Fin 128)) = Cert.Spec.countSum (Emb m c) (Lab m c) := by
  have e : ∀ k : Fin 2, outC m c (ix3 k (0 : Fin 1) (0 : Fin 128)) = Cert.Spec.zero + ∑ s ∈ Finset.range 32, countAt m c (32 * k.val + s) := fun k => rfl
  rw [Finset.sum_congr rfl fun k _ => e k, sum_cores (countAt m c),
    Finset.sum_congr rfl fun n hn => countAt_eq m c n (Finset.mem_range.mp hn), sum_runs (countOf m c) 2048 64]
  unfold Cert.Spec.countSum
  rw [show (2048 * 64 : ℕ) = 131072 from rfl, Finset.sum_range]
  refine Finset.sum_congr rfl fun b _ => ?_
  unfold countOf
  rw [dif_pos b.isLt]

/-- The result buffer is no window's array and is not scoped: the frame run's post states it. -/
theorem v8_rest : main_v8 ∈ Pipeline.restRefs sig (cfgs 0).spec :=
  Pipeline.mem_restRefs_of main_v8 (by decide) (fun w => by fin_cases w <;> decide)

/-- THE KERNEL'S RUN, READ: every weakly fair execution terminates with the result buffer at the specification's
    value of the argument arrays and the arguments unchanged. -/
theorem run : θ_run defs (onTc (τ := τ) (main (F := Ideal))) ⟨m, fun _ => 0, ρ⟩ fun r => ∀ c : Dev nD,
      r.2.mem ((c.tc : Thread nD τ).loc main_v8) = (fun _ => Cert.Spec.total (Emb m c) (Lab m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v8 v8_rest).trans ((tail_eq m c).trans (by
        rw [final2, final3]
        funext j
        rw [tail_apply, lossTotal, countTotal]
        rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KTotal

end
-- ==== Proof.RefTerm.lean ====
/-
  The reference program as one pure function of its two arguments, stage by stage in the program's own
  operations: the anchor row broadcast against the seven others, the squared distances summed over the
  128 lanes, the label comparison, the two "some row" reductions, the masked maximum and the threshold,
  the two masked sums, the counted loss and the count summed over all samples, and their quotient.
-/
import proofs.«114061_j22462678958338_2_alg».proof.Proof.Gen.ReferenceIdeal

noncomputable section

namespace Cert.RefTerm

open Cert.ReferenceIdeal Cert.ReferenceIdeal.Gen Idealize.ShloMosaic

variable {F : FTy → Type} [FloatOps F]

variable (E : (⟨S8x131072x128, .f32⟩ : BufTy).Contents (Elt F)) (T : (⟨S8x131072, .i32⟩ : BufTy).Contents (Elt F))

/-- The anchor row, repeated against each of the seven other rows. -/
def anchor : (⟨S7x131072x128, .f32⟩ : BufTy).Contents (Elt F) :=
  broadcastInDim S7x131072x128 ![0, 1, 2] bcast_S1x131072x128_S7x131072x128_0_1_2
    (broadcastInDim S1x131072x128 ![1, 2] bcast_S131072x128_S1x131072x128_1_2
      (shapeCast S131072x128 (extractStridedSlice S1x131072x128 ![0, 0, 0] E slices_S8x131072x128_S1x131072x128_0_0_0)
        shapeCasts_S1x131072x128_S131072x128))

/-- The seven other rows. -/
def others : (⟨S7x131072x128, .f32⟩ : BufTy).Contents (Elt F) :=
  extractStridedSlice S7x131072x128 ![1, 0, 0] E slices_S8x131072x128_S7x131072x128_1_0_0

/-- Squared distances to the anchor. -/
def dist : (⟨S7x131072, .f32⟩ : BufTy).Contents (Elt F) :=
  Host.reduceAdd (mulf (subf (anchor E) (others E)) (subf (anchor E) (others E))) (constant S_ .f32 0x00000000#32)
    reducesTo_S7x131072x128_S7x131072_d2 h_S_

/-- Which rows have the anchor's label. -/
def same : (⟨S7x131072, .i1⟩ : BufTy).Contents (Elt F) :=
  cmpi .eq (extractStridedSlice S7x131072 ![1, 0] T slices_S8x131072_S7x131072_1_0)
    (broadcastInDim S7x131072 ![0, 1] bcast_S1x131072_S7x131072_0_1
      (broadcastInDim S1x131072 ![1] bcast_S131072_S1x131072_1
        (shapeCast S131072 (extractStridedSlice S1x131072 ![0, 0] T slices_S8x131072_S1x131072_0_0) shapeCasts_S1x131072_S131072)))

def anySame : (⟨S131072, .i1⟩ : BufTy).Contents (Elt F) :=
  Host.reduce IntOp.ori (same (F := F) T) (constantI S_ 1 0#1) reducesTo_S7x131072_S131072_d0 h_S_

/-- A constant spread over the seven rows of every sample, and over the samples. -/
def splat7 (w : BitVec 32) : (⟨S7x131072, .f32⟩ : BufTy).Contents (Elt F) :=
  broadcastInDim S7x131072 ![] bcast_S_S7x131072 (constant S_ .f32 w)
def splat1 (w : BitVec 32) : (⟨S131072, .f32⟩ : BufTy).Contents (Elt F) :=
  broadcastInDim S131072 ![] bcast_S_S131072 (constant S_ .f32 w)

def maxSame : (⟨S131072, .f32⟩ : BufTy).Contents (Elt F) :=
  Host.reduce FloatOps.maximumf (select (same (F := F) T) (dist E) (splat7 0xFF800000#32)) (constant S_ .f32 0xFF800000#32)
    reducesTo_S7x131072_S131072_d0 h_S_

def alpha : (⟨S131072, .f32⟩ : BufTy).Contents (Elt F) :=
  select (anySame (F := F) T) (maxSame E T) (splat1 0x3F800000#32)

def sameSum : (⟨S131072, .f32⟩ : BufTy).Contents (Elt F) :=
  Host.reduceAdd (select (same (F := F) T) (dist E) (splat7 0x00000000#32)) (constant S_ .f32 0x00000000#32)
    reducesTo_S7x131072_S131072_d0 h_S_

def margin : (⟨S7x131072, .f32⟩ : BufTy).Contents (Elt F) :=
  subf (dist E) (broadcastInDim S7x131072 ![0, 1] bcast_S1x131072_S7x131072_0_1
    (broadcastInDim S1x131072 ![1] bcast_S131072_S1x131072_1 (alpha E T)))

def neg : (⟨S7x131072, .i1⟩ : BufTy).Contents (Elt F) :=
  andi (noti (same (F := F) T)) (cmpf .olt (margin E T) (splat7 0x00000000#32))

def negSum : (⟨S131072, .f32⟩ : BufTy).Contents (Elt F) :=
  Host.reduceAdd (select (neg E T) (margin E T) (splat7 0x00000000#32)) (constant S_ .f32 0x00000000#32)
    reducesTo_S7x131072_S131072_d0 h_S_

def anyNeg : (⟨S131072, .i1⟩ : BufTy).Contents (Elt F) :=
  Host.reduce IntOp.ori (neg E T) (constantI S_ 1 0#1) reducesTo_S7x131072_S131072_d0 h_S_

def incl : (⟨S131072, .i1⟩ : BufTy).Contents (Elt F) := ori (anySame (F := F) T) (anyNeg E T)

def loss : (⟨S131072, .f32⟩ : BufTy).Contents (Elt F) := subf (sameSum E T) (negSum E T)

def countSum : (⟨S_, .f32⟩ : BufTy).Contents (Elt F) :=
  Host.reduceAdd (uitofp .f32 (incl E T)) (constant S_ .f32 0x00000000#32) reducesTo_S131072_S_d0 h_S_

def lossSum : (⟨S_, .f32⟩ : BufTy).Contents (Elt F) :=
  Host.reduceAdd (select (incl E T) (loss E T) (splat1 0x00000000#32)) (constant S_ .f32 0x00000000#32) reducesTo_S131072_S_d0 h_S_

/-- The reference's result. -/
def result : (⟨S_, .f32⟩ : BufTy).Contents (Elt F) :=
  Host.divf (lossSum E T) (maximumf (countSum E T) (constant S_ .f32 0x3F800000#32))

end Cert.RefTerm

end
-- ==== Proof.RefOps.lean ====
/-
  The reference program's @main as a straight line of 63 host operations (the five `where` calls stand as
  their three operations each at the call site), and the side facts the straight-line run asks of it.
-/
import proofs.«114061_j22462678958338_2_alg».proof.Proof.RefTerm
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ unary main_arg0 main_v0 ((extractStridedSlice S1x131072x128 ![0, 0, 0] · slices_S8x131072x128_S1x131072x128_0_0_0) : (⟨S8x131072x128, .f32⟩ : BufTy).Contents (Elt F) → (⟨S1x131072x128, .f32⟩ : BufTy).Contents (Elt F)),
    reshape main_v0 main_v1 rfl shapeCasts_S1x131072x128_S131072x128,
    unary main_v1 main_v2 (broadcastInDim S1x131072x128 ![1, 2] bcast_S131072x128_S1x131072x128_1_2 : (⟨S131072x128, .f32⟩ : BufTy).Contents (Elt F) → (⟨S1x131072x128, .f32⟩ : BufTy).Contents (Elt F)),
    unary main_arg0 main_v3 ((extractStridedSlice S7x131072x128 ![1, 0, 0] · slices_S8x131072x128_S7x131072x128_1_0_0) : (⟨S8x131072x128, .f32⟩ : BufTy).Contents (Elt F) → (⟨S7x131072x128, .f32⟩ : BufTy).Contents (Elt F)),
    unary main_v2 main_v4 (broadcastInDim S7x131072x128 ![0, 1, 2] bcast_S1x131072x128_S7x131072x128_0_1_2 : (⟨S1x131072x128, .f32⟩ : BufTy).Contents (Elt F) → (⟨S7x131072x128, .f32⟩ : BufTy).Contents (Elt F)),
    binary main_v4 main_v3 main_v5 (subf : (⟨S7x131072x128, .f32⟩ : BufTy).Contents (Elt F) → (⟨S7x131072x128, .f32⟩ : BufTy).Contents (Elt F) → (⟨S7x131072x128, .f32⟩ : BufTy).Contents (Elt F)),
    binary main_v5 main_v5 main_v6 (mulf : (⟨S7x131072x128, .f32⟩ : BufTy).Contents (Elt F) → (⟨S7x131072x128, .f32⟩ : BufTy).Contents (Elt F) → (⟨S7x131072x128, .f32⟩ : BufTy).Contents (Elt F)),
    nullary main_cst (constant S_ .f32 0x00000000#32),
    binary main_v6 main_cst main_v7 ((fun x v => Host.reduceAdd x v reducesTo_S7x131072x128_S7x131072_d2 h_S_) : (⟨S7x131072x128, .f32⟩ : BufTy).Contents (Elt F) → (⟨S_, .f32⟩ : BufTy).Contents (Elt F) → (⟨S7x131072, .f32⟩ : BufTy).Contents (Elt F)),
    unary main_arg1 main_v8 ((extractStridedSlice S7x131072 ![1, 0] · slices_S8x131072_S7x131072_1_0) : (⟨S8x131072, .i32⟩ : BufTy).Contents (Elt F) → (⟨S7x131072, .i32⟩ : BufTy).Contents (Elt F)),
    unary main_arg1 main_v9 ((extractStridedSlice S1x131072 ![0, 0] · slices_S8x131072_S1x131072_0_0) : (⟨S8x131072, .i32⟩ : BufTy).Contents (Elt F) → (⟨S1x131072, .i32⟩ : BufTy).Contents (Elt F)),
    reshape main_v9 main_v10 rfl shapeCasts_S1x131072_S131072,
    unary main_v10 main_v11 (broadcastInDim S1x131072 ![1] bcast_S131072_S1x131072_1 : (⟨S131072, .i32⟩ : BufTy).Contents (Elt F) → (⟨S1x131072, .i32⟩ : BufTy).Contents (Elt F)),
    unary main_v11 main_v12 (broadcastInDim S7x131072 ![0, 1] bcast_S1x131072_S7x131072_0_1 : (⟨S1x131072, .i32⟩ : BufTy).Contents (Elt F) → (⟨S7x131072, .i32⟩ : BufTy).Contents (Elt F)),
    binary main_v8 main_v12 main_v13 (cmpi .eq : (⟨S7x131072, .i32⟩ : BufTy).Contents (Elt F) → (⟨S7x131072, .i32⟩ : BufTy).Contents (Elt F) → (⟨S7x131072, .i1⟩ : BufTy).Contents (Elt F)),
    nullary main_c (constantI S_ 1 0#1),
    binary main_v13 main_c main_v14 ((fun x v => Host.reduce IntOp.ori x v reducesTo_S7x131072_S131072_d0 h_S_) : (⟨S7x131072, .i1⟩ : BufTy).Contents (Elt F) → (⟨S_, .i1⟩ : BufTy).Contents (Elt F) → (⟨S131072, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S7x131072, .f32⟩) main_call0_v1) (broadcastInDim S7x131072 ![] bcast_S_S7x131072),
    TRef.ternary (TRef.of (T := ⟨S7x131072, .i1⟩) main_v13) (TRef.of (T := ⟨S7x131072, .f32⟩) main_v7) (TRef.of (T := ⟨S7x131072, .f32⟩) main_call0_v1) (TRef.of (T := ⟨S7x131072, .f32⟩) main_v15) select,
    nullary main_cst_1 (constant S_ .f32 0xFF800000#32),
    binary main_v15 main_cst_1 main_v16 ((fun x v => Host.reduce FloatOps.maximumf x v reducesTo_S7x131072_S131072_d0 h_S_) : (⟨S7x131072, .f32⟩ : BufTy).Contents (Elt F) → (⟨S_, .f32⟩ : BufTy).Contents (Elt F) → (⟨S131072, .f32⟩ : BufTy).Contents (Elt F)),
    nullary main_cst_2 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S131072, .f32⟩) main_call1_v1) (broadcastInDim S131072 ![] bcast_S_S131072),
    TRef.ternary (TRef.of (T := ⟨S131072, .i1⟩) main_v14) (TRef.of (T := ⟨S131072, .f32⟩) main_v16) (TRef.of (T := ⟨S131072, .f32⟩) main_call1_v1) (TRef.of (T := ⟨S131072, .f32⟩) main_v17) select,
    nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S7x131072, .f32⟩) main_call2_v1) (broadcastInDim S7x131072 ![] bcast_S_S7x131072),
    TRef.ternary (TRef.of (T := ⟨S7x131072, .i1⟩) main_v13) (TRef.of (T := ⟨S7x131072, .f32⟩) main_v7) (TRef.of (T := ⟨S7x131072, .f32⟩) main_call2_v1) (TRef.of (T := ⟨S7x131072, .f32⟩) main_v18) select,
    nullary main_cst_4 (constant S_ .f32 0x00000000#32),
    binary main_v18 main_cst_4 main_v19 ((fun x v => Host.reduceAdd x v reducesTo_S7x131072_S131072_d0 h_S_) : (⟨S7x131072, .f32⟩ : BufTy).Contents (Elt F) → (⟨S_, .f32⟩ : BufTy).Contents (Elt F) → (⟨S131072, .f32⟩ : BufTy).Contents (Elt F)),
    unary main_v17 main_v20 (broadcastInDim S1x131072 ![1] bcast_S131072_S1x131072_1 : (⟨S131072, .f32⟩ : BufTy).Contents (Elt F) → (⟨S1x131072, .f32⟩ : BufTy).Contents (Elt F)),
    unary main_v20 main_v21 (broadcastInDim S7x131072 ![0, 1] bcast_S1x131072_S7x131072_0_1 : (⟨S1x131072, .f32⟩ : BufTy).Contents (Elt F) → (⟨S7x131072, .f32⟩ : BufTy).Contents (Elt F)),
    binary main_v7 main_v21 main_v22 (subf : (⟨S7x131072, .f32⟩ : BufTy).Contents (Elt F) → (⟨S7x131072, .f32⟩ : BufTy).Contents (Elt F) → (⟨S7x131072, .f32⟩ : BufTy).Contents (Elt F)),
    unary main_v13 main_v23 (noti : (⟨S7x131072, .i1⟩ : BufTy).Contents (Elt F) → (⟨S7x131072, .i1⟩ : BufTy).Contents (Elt F)),
    nullary main_cst_5 (constant S_ .f32 0x00000000#32),
    unary main_cst_5 main_v24 (broadcastInDim S7x131072 ![] bcast_S_S7x131072 : (⟨S_, .f32⟩ : BufTy).Contents (Elt F) → (⟨S7x131072, .f32⟩ : BufTy).Contents (Elt F)),
    binary main_v22 main_v24 main_v25 (cmpf .olt : (⟨S7x131072, .f32⟩ : BufTy).Contents (Elt F) → (⟨S7x131072, .f32⟩ : BufTy).Contents (Elt F) → (⟨S7x131072, .i1⟩ : BufTy).Contents (Elt F)),
    binary main_v23 main_v25 main_v26 (andi : (⟨S7x131072, .i1⟩ : BufTy).Contents (Elt F) → (⟨S7x131072, .i1⟩ : BufTy).Contents (Elt F) → (⟨S7x131072, .i1⟩ : BufTy).Contents (Elt F)),
    nullary main_cst_6 (constant S_ .f32 0x00000000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S7x131072, .f32⟩) main_call3_v1) (broadcastInDim S7x131072 ![] bcast_S_S7x131072),
    TRef.ternary (TRef.of (T := ⟨S7x131072, .i1⟩) main_v26) (TRef.of (T := ⟨S7x131072, .f32⟩) main_v22) (TRef.of (T := ⟨S7x131072, .f32⟩) main_call3_v1) (TRef.of (T := ⟨S7x131072, .f32⟩) main_v27) select,
    nullary main_cst_7 (constant S_ .f32 0x00000000#32),
    binary main_v27 main_cst_7 main_v28 ((fun x v => Host.reduceAdd x v reducesTo_S7x131072_S131072_d0 h_S_) : (⟨S7x131072, .f32⟩ : BufTy).Contents (Elt F) → (⟨S_, .f32⟩ : BufTy).Contents (Elt F) → (⟨S131072, .f32⟩ : BufTy).Contents (Elt F)),
    nullary main_c_8 (constantI S_ 1 0#1),
    binary main_v26 main_c_8 main_v29 ((fun x v => Host.reduce IntOp.ori x v reducesTo_S7x131072_S131072_d0 h_S_) : (⟨S7x131072, .i1⟩ : BufTy).Contents (Elt F) → (⟨S_, .i1⟩ : BufTy).Contents (Elt F) → (⟨S131072, .i1⟩ : BufTy).Contents (Elt F)),
    binary main_v14 main_v29 main_v30 (ori : (⟨S131072, .i1⟩ : BufTy).Contents (Elt F) → (⟨S131072, .i1⟩ : BufTy).Contents (Elt F) → (⟨S131072, .i1⟩ : BufTy).Contents (Elt F)),
    binary main_v19 main_v28 main_v31 (subf : (⟨S131072, .f32⟩ : BufTy).Contents (Elt F) → (⟨S131072, .f32⟩ : BufTy).Contents (Elt F) → (⟨S131072, .f32⟩ : BufTy).Contents (Elt F)),
    unary main_v30 main_v32 (uitofp .f32 : (⟨S131072, .i1⟩ : BufTy).Contents (Elt F) → (⟨S131072, .f32⟩ : BufTy).Contents (Elt F)),
    nullary main_cst_9 (constant S_ .f32 0x00000000#32),
    binary main_v32 main_cst_9 main_v33 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_10 (constant S_ .f32 0x3F800000#32),
    binary main_v33 main_cst_10 main_v34 (maximumf : (⟨S_, .f32⟩ : BufTy).Contents (Elt F) → (⟨S_, .f32⟩ : BufTy).Contents (Elt F) → (⟨S_, .f32⟩ : BufTy).Contents (Elt F)),
    nullary main_cst_11 (constant S_ .f32 0x00000000#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S131072, .f32⟩) main_call4_v1) (broadcastInDim S131072 ![] bcast_S_S131072),
    TRef.ternary (TRef.of (T := ⟨S131072, .i1⟩) main_v30) (TRef.of (T := ⟨S131072, .f32⟩) main_v31) (TRef.of (T := ⟨S131072, .f32⟩) main_call4_v1) (TRef.of (T := ⟨S131072, .f32⟩) main_v35) select,
    nullary main_cst_12 (constant S_ .f32 0x00000000#32),
    binary main_v35 main_cst_12 main_v36 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    binary main_v36 main_v34 main_v37 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., nullary_bufs_sub .., binary_bufs_sub .., unary_bufs_sub .., unary_bufs_sub .., reshape_bufs_sub .., unary_bufs_sub .., unary_bufs_sub .., binary_bufs_sub .., nullary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., binary_bufs_sub .., unary_bufs_sub .., unary_bufs_sub .., binary_bufs_sub .., unary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., binary_bufs_sub .., binary_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., binary_bufs_sub ..⟩

end Cert.RefOps

end
-- ==== Proof.RefStretch.lean ====
/-
  The reference's line read in eleven short stretches — the distances and the label comparison; the largest
  same-class distance; the threshold; the same-class sum; the margins; the closer different-class rows; the sum
  of their margins; "some such row"; the counted flag; the per-sample loss; the two sums over the samples and
  their quotient — each a pure function of the few buffers it reads, every other buffer left as it was.
-/
import proofs.«114061_j22462678958338_2_alg».proof.Proof.RefOps
import Idealize.ShloMosaic.Lib.Pipeline.Frame

-- the stretches are evaluated one after the other
set_option Elab.async false

noncomputable section

namespace Cert.RefStretch

open Cert.ReferenceIdeal Cert.ReferenceIdeal.Gen Idealize.ShloMosaic Idealize.ShloMosaic.TcCoe Idealize.SL.Sem Idealize.ShloMosaic.StableHlo

variable {F : FTy → Type} [FloatOps F]

open Cert.RefOps

/-! ## The stretches -/

/-- Operations 1–17: the squared distances, the label comparison, "some row shares the label". -/
abbrev opsA : List (HloOp τ sig (Elt F)) :=
  [ unary main_arg0 main_v0 ((extractStridedSlice S1x131072x128 ![0, 0, 0] · slices_S8x131072x128_S1x131072x128_0_0_0) : (⟨S8x131072x128, .f32⟩ : BufTy).Contents (Elt F) → (⟨S1x131072x128, .f32⟩ : BufTy).Contents (Elt F)),
    reshape main_v0 main_v1 rfl shapeCasts_S1x131072x128_S131072x128,
    unary main_v1 main_v2 (broadcastInDim S1x131072x128 ![1, 2] bcast_S131072x128_S1x131072x128_1_2 : (⟨S131072x128, .f32⟩ : BufTy).Contents (Elt F) → (⟨S1x131072x128, .f32⟩ : BufTy).Contents (Elt F)),
    unary main_arg0 main_v3 ((extractStridedSlice S7x131072x128 ![1, 0, 0] · slices_S8x131072x128_S7x131072x128_1_0_0) : (⟨S8x131072x128, .f32⟩ : BufTy).Contents (Elt F) → (⟨S7x131072x128, .f32⟩ : BufTy).Contents (Elt F)),
    unary main_v2 main_v4 (broadcastInDim S7x131072x128 ![0, 1, 2] bcast_S1x131072x128_S7x131072x128_0_1_2 : (⟨S1x131072x128, .f32⟩ : BufTy).Contents (Elt F) → (⟨S7x131072x128, .f32⟩ : BufTy).Contents (Elt F)),
    binary main_v4 main_v3 main_v5 (subf : (⟨S7x131072x128, .f32⟩ : BufTy).Contents (Elt F) → (⟨S7x131072x128, .f32⟩ : BufTy).Contents (Elt F) → (⟨S7x131072x128, .f32⟩ : BufTy).Contents (Elt F)),
    binary main_v5 main_v5 main_v6 (mulf : (⟨S7x131072x128, .f32⟩ : BufTy).Contents (Elt F) → (⟨S7x131072x128, .f32⟩ : BufTy).Contents (Elt F) → (⟨S7x131072x128, .f32⟩ : BufTy).Contents (Elt F)),
    nullary main_cst (constant S_ .f32 0x00000000#32),
    binary main_v6 main_cst main_v7 ((fun x v => Host.reduceAdd x v reducesTo_S7x131072x128_S7x131072_d2 h_S_) : (⟨S7x131072x128, .f32⟩ : BufTy).Contents (Elt F) → (⟨S_, .f32⟩ : BufTy).Contents (Elt F) → (⟨S7x131072, .f32⟩ : BufTy).Contents (Elt F)),
    unary main_arg1 main_v8 ((extractStridedSlice S7x131072 ![1, 0] · slices_S8x131072_S7x131072_1_0) : (⟨S8x131072, .i32⟩ : BufTy).Contents (Elt F) → (⟨S7x131072, .i32⟩ : BufTy).Contents (Elt F)),
    unary main_arg1 main_v9 ((extractStridedSlice S1x131072 ![0, 0] · slices_S8x131072_S1x131072_0_0) : (⟨S8x131072, .i32⟩ : BufTy).Contents (Elt F) → (⟨S1x131072, .i32⟩ : BufTy).Contents (Elt F)),
    reshape main_v9 main_v10 rfl shapeCasts_S1x131072_S131072,
    unary main_v10 main_v11 (broadcastInDim S1x131072 ![1] bcast_S131072_S1x131072_1 : (⟨S131072, .i32⟩ : BufTy).Contents (Elt F) → (⟨S1x131072, .i32⟩ : BufTy).Contents (Elt F)),
    unary main_v11 main_v12 (broadcastInDim S7x131072 ![0, 1] bcast_S1x131072_S7x131072_0_1 : (⟨S1x131072, .i32⟩ : BufTy).Contents (Elt F) → (⟨S7x131072, .i32⟩ : BufTy).Contents (Elt F)),
    binary main_v8 main_v12 main_v13 (cmpi .eq : (⟨S7x131072, .i32⟩ : BufTy).Contents (Elt F) → (⟨S7x131072, .i32⟩ : BufTy).Contents (Elt F) → (⟨S7x131072, .i1⟩ : BufTy).Contents (Elt F)),
    nullary main_c (constantI S_ 1 0#1),
    binary main_v13 main_c main_v14 ((fun x v => Host.reduce IntOp.ori x v reducesTo_S7x131072_S131072_d0 h_S_) : (⟨S7x131072, .i1⟩ : BufTy).Contents (Elt F) → (⟨S_, .i1⟩ : BufTy).Contents (Elt F) → (⟨S131072, .i1⟩ : BufTy).Contents (Elt F)) ]

/-- Operations 18–23: the largest same-class distance. -/
abbrev opsB1 : List (HloOp τ sig (Elt F)) :=
  [ nullary main_cst_0 (constant S_ .f32 0xFF800000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S7x131072, .f32⟩) main_call0_v1) (broadcastInDim S7x131072 ![] bcast_S_S7x131072),
    TRef.ternary (TRef.of (T := ⟨S7x131072, .i1⟩) main_v13) (TRef.of (T := ⟨S7x131072, .f32⟩) main_v7) (TRef.of (T := ⟨S7x131072, .f32⟩) main_call0_v1) (TRef.of (T := ⟨S7x131072, .f32⟩) main_v15) select,
    nullary main_cst_1 (constant S_ .f32 0xFF800000#32),
    binary main_v15 main_cst_1 main_v16 ((fun x v => Host.reduce FloatOps.maximumf x v reducesTo_S7x131072_S131072_d0 h_S_) : (⟨S7x131072, .f32⟩ : BufTy).Contents (Elt F) → (⟨S_, .f32⟩ : BufTy).Contents (Elt F) → (⟨S131072, .f32⟩ : BufTy).Contents (Elt F)) ]

/-- Operations 24–27: the threshold. -/
abbrev opsB2 : List (HloOp τ sig (Elt F)) :=
  [ nullary main_cst_2 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S131072, .f32⟩) main_call1_v1) (broadcastInDim S131072 ![] bcast_S_S131072),
    TRef.ternary (TRef.of (T := ⟨S131072, .i1⟩) main_v14) (TRef.of (T := ⟨S131072, .f32⟩) main_v16) (TRef.of (T := ⟨S131072, .f32⟩) main_call1_v1) (TRef.of (T := ⟨S131072, .f32⟩) main_v17) select ]

/-- Operations 28–33: the same-class sum. -/
abbrev opsB3 : List (HloOp τ sig (Elt F)) :=
  [ nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S7x131072, .f32⟩) main_call2_v1) (broadcastInDim S7x131072 ![] bcast_S_S7x131072),
    TRef.ternary (TRef.of (T := ⟨S7x131072, .i1⟩) main_v13) (TRef.of (T := ⟨S7x131072, .f32⟩) main_v7) (TRef.of (T := ⟨S7x131072, .f32⟩) main_call2_v1) (TRef.of (T := ⟨S7x131072, .f32⟩) main_v18) select,
    nullary main_cst_4 (constant S_ .f32 0x00000000#32),
    binary main_v18 main_cst_4 main_v19 ((fun x v => Host.reduceAdd x v reducesTo_S7x131072_S131072_d0 h_S_) : (⟨S7x131072, .f32⟩ : BufTy).Contents (Elt F) → (⟨S_, .f32⟩ : BufTy).Contents (Elt F) → (⟨S131072, .f32⟩ : BufTy).Contents (Elt F)) ]

/-- Operations 34–36: the margins. -/
abbrev opsB4 : List (HloOp τ sig (Elt F)) :=
  [ unary main_v17 main_v20 (broadcastInDim S1x131072 ![1] bcast_S131072_S1x131072_1 : (⟨S131072, .f32⟩ : BufTy).Contents (Elt F) → (⟨S1x131072, .f32⟩ : BufTy).Contents (Elt F)),
    unary main_v20 main_v21 (broadcastInDim S7x131072 ![0, 1] bcast_S1x131072_S7x131072_0_1 : (⟨S1x131072, .f32⟩ : BufTy).Contents (Elt F) → (⟨S7x131072, .f32⟩ : BufTy).Contents (Elt F)),
    binary main_v7 main_v21 main_v22 (subf : (⟨S7x131072, .f32⟩ : BufTy).Contents (Elt F) → (⟨S7x131072, .f32⟩ : BufTy).Contents (Elt F) → (⟨S7x131072, .f32⟩ : BufTy).Contents (Elt F)) ]

/-- Operations 37–41: the closer different-class rows. -/
abbrev opsC1 : List (HloOp τ sig (Elt F)) :=
  [ unary main_v13 main_v23 (noti : (⟨S7x131072, .i1⟩ : BufTy).Contents (Elt F) → (⟨S7x131072, .i1⟩ : BufTy).Contents (Elt F)),
    nullary main_cst_5 (constant S_ .f32 0x00000000#32),
    unary main_cst_5 main_v24 (broadcastInDim S7x131072 ![] bcast_S_S7x131072 : (⟨S_, .f32⟩ : BufTy).Contents (Elt F) → (⟨S7x131072, .f32⟩ : BufTy).Contents (Elt F)),
    binary main_v22 main_v24 main_v25 (cmpf .olt : (⟨S7x131072, .f32⟩ : BufTy).Contents (Elt F) → (⟨S7x131072, .f32⟩ : BufTy).Contents (Elt F) → (⟨S7x131072, .i1⟩ : BufTy).Contents (Elt F)),
    binary main_v23 main_v25 main_v26 (andi : (⟨S7x131072, .i1⟩ : BufTy).Contents (Elt F) → (⟨S7x131072, .i1⟩ : BufTy).Contents (Elt F) → (⟨S7x131072, .i1⟩ : BufTy).Contents (Elt F)) ]

/-- Operations 42–47: the sum of their margins. -/
abbrev opsC2 : List (HloOp τ sig (Elt F)) :=
  [ nullary main_cst_6 (constant S_ .f32 0x00000000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S7x131072, .f32⟩) main_call3_v1) (broadcastInDim S7x131072 ![] bcast_S_S7x131072),
    TRef.ternary (TRef.of (T := ⟨S7x131072, .i1⟩) main_v26) (TRef.of (T := ⟨S7x131072, .f32⟩) main_v22) (TRef.of (T := ⟨S7x131072, .f32⟩) main_call3_v1) (TRef.of (T := ⟨S7x131072, .f32⟩) main_v27) select,
    nullary main_cst_7 (constant S_ .f32 0x00000000#32),
    binary main_v27 main_cst_7 main_v28 ((fun x v => Host.reduceAdd x v reducesTo_S7x131072_S131072_d0 h_S_) : (⟨S7x131072, .f32⟩ : BufTy).Contents (Elt F) → (⟨S_, .f32⟩ : BufTy).Contents (Elt F) → (⟨S131072, .f32⟩ : BufTy).Contents (Elt F)) ]

/-- Operations 48–49: "some such row". -/
abbrev opsC3 : List (HloOp τ sig (Elt F)) :=
  [ nullary main_c_8 (constantI S_ 1 0#1),
    binary main_v26 main_c_8 main_v29 ((fun x v => Host.reduce IntOp.ori x v reducesTo_S7x131072_S131072_d0 h_S_) : (⟨S7x131072, .i1⟩ : BufTy).Contents (Elt F) → (⟨S_, .i1⟩ : BufTy).Contents (Elt F) → (⟨S131072, .i1⟩ : BufTy).Contents (Elt F)) ]

/-- Operation 50: the counted flag. -/
abbrev opsC4 : List (HloOp τ sig (Elt F)) :=
  [ binary main_v14 main_v29 main_v30 (ori : (⟨S131072, .i1⟩ : BufTy).Contents (Elt F) → (⟨S131072, .i1⟩ : BufTy).Contents (Elt F) → (⟨S131072, .i1⟩ : BufTy).Contents (Elt F)) ]

/-- Operation 51: the per-sample loss. -/
abbrev opsC5 : List (HloOp τ sig (Elt F)) :=
  [ binary main_v19 main_v28 main_v31 (subf : (⟨S131072, .f32⟩ : BufTy).Contents (Elt F) → (⟨S131072, .f32⟩ : BufTy).Contents (Elt F) → (⟨S131072, .f32⟩ : BufTy).Contents (Elt F)) ]

/-- Operations 52–63: the count and the counted loss summed over the samples, and the quotient. -/
abbrev opsD : List (HloOp τ sig (Elt F)) :=
  [ unary main_v30 main_v32 (uitofp .f32 : (⟨S131072, .i1⟩ : BufTy).Contents (Elt F) → (⟨S131072, .f32⟩ : BufTy).Contents (Elt F)),
    nullary main_cst_9 (constant S_ .f32 0x00000000#32),
    binary main_v32 main_cst_9 main_v33 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_10 (constant S_ .f32 0x3F800000#32),
    binary main_v33 main_cst_10 main_v34 (maximumf : (⟨S_, .f32⟩ : BufTy).Contents (Elt F) → (⟨S_, .f32⟩ : BufTy).Contents (Elt F) → (⟨S_, .f32⟩ : BufTy).Contents (Elt F)),
    nullary main_cst_11 (constant S_ .f32 0x00000000#32),
    TRef.unary (TRef.of (T := ⟨S_, .f32⟩) main_cst_11) (TRef.of (T := ⟨S_, .f32⟩) main_call4_v0) id,
    TRef.unary (TRef.of (T := ⟨S_, .f32⟩) main_call4_v0) (TRef.of (T := ⟨S131072, .f32⟩) main_call4_v1) (broadcastInDim S131072 ![] bcast_S_S131072),
    TRef.ternary (TRef.of (T := ⟨S131072, .i1⟩) main_v30) (TRef.of (T := ⟨S131072, .f32⟩) main_v31) (TRef.of (T := ⟨S131072, .f32⟩) main_call4_v1) (TRef.of (T := ⟨S131072, .f32⟩) main_v35) select,
    nullary main_cst_12 (constant S_ .f32 0x00000000#32),
    binary main_v35 main_cst_12 main_v36 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    binary main_v36 main_v34 main_v37 (Host.divf : (⟨S_, .f32⟩ : BufTy).Contents (Elt F) → (⟨S_, .f32⟩ : BufTy).Contents (Elt F) → (⟨S_, .f32⟩ : BufTy).Contents (Elt F)) ]

set_option maxRecDepth 8192 in
theorem ops_split : (ops : List (HloOp τ sig (Elt F))) = opsA ++ (opsB1 ++ (opsB2 ++ (opsB3 ++ (opsB4 ++ (opsC1 ++ (opsC2 ++ (opsC3 ++ (opsC4 ++ (opsC5 ++ (opsD)))))))))) := rfl

/-! ## Each stretch as a function of the buffers it reads -/

section Stages

variable (d : (⟨S7x131072, .f32⟩ : BufTy).Contents (Elt F)) (s : (⟨S7x131072, .i1⟩ : BufTy).Contents (Elt F))
  (a : (⟨S131072, .i1⟩ : BufTy).Contents (Elt F)) (mx al : (⟨S131072, .f32⟩ : BufTy).Contents (Elt F))
  (mg : (⟨S7x131072, .f32⟩ : BufTy).Contents (Elt F)) (ng : (⟨S7x131072, .i1⟩ : BufTy).Contents (Elt F))
  (inc : (⟨S131072, .i1⟩ : BufTy).Contents (Elt F)) (ls : (⟨S131072, .f32⟩ : BufTy).Contents (Elt F))

/-- The largest same-class distance, from the distances and the label comparison. -/
def maxOf : (⟨S131072, .f32⟩ : BufTy).Contents (Elt F) :=
  Host.reduce FloatOps.maximumf (select s d (Cert.RefTerm.splat7 0xFF800000#32)) (constant S_ .f32 0xFF800000#32)
    reducesTo_S7x131072_S131072_d0 h_S_

/-- The threshold, from "some row shares the label" and that maximum. -/
def alphaOf : (⟨S131072, .f32⟩ : BufTy).Contents (Elt F) := select a mx (Cert.RefTerm.splat1 0x3F800000#32)

/-- The same-class sum. -/
def sameSumOf : (⟨S131072, .f32⟩ : BufTy).Contents (Elt F) :=
  Host.reduceAdd (select s d (Cert.RefTerm.splat7 0x00000000#32)) (constant S_ .f32 0x00000000#32) reducesTo_S7x131072_S131072_d0 h_S_

/-- The margins, from the distances and the threshold. -/
def marginOf : (⟨S7x131072, .f32⟩ : BufTy).Contents (Elt F) :=
  subf d (broadcastInDim S7x131072 ![0, 1] bcast_S1x131072_S7x131072_0_1 (broadcastInDim S1x131072 ![1] bcast_S131072_S1x131072_1 al))

/-- The closer different-class rows, from the label comparison and the margins. -/
def negOf : (⟨S7x131072, .i1⟩ : BufTy).Contents (Elt F) :=
  andi (noti s) (cmpf .olt mg (Cert.RefTerm.splat7 0x00000000#32))

/-- The sum of those rows' margins. -/
def negSumOf : (⟨S131072, .f32⟩ : BufTy).Contents (Elt F) :=
  Host.reduceAdd (select ng mg (Cert.RefTerm.splat7 0x00000000#32)) (constant S_ .f32 0x00000000#32) reducesTo_S7x131072_S131072_d0 h_S_

/-- "Some such row". -/
def anyOf : (⟨S131072, .i1⟩ : BufTy).Contents (Elt F) :=
  Host.reduce IntOp.ori ng (constantI S_ 1 0#1) reducesTo_S7x131072_S131072_d0 h_S_

/-- The quotient of the two sums over the samples. -/
def resultOf : (⟨S_, .f32⟩ : BufTy).Contents (Elt F) :=
  Host.divf (Host.reduceAdd (select inc ls (Cert.RefTerm.splat1 0x00000000#32)) (constant S_ .f32 0x00000000#32) reducesTo_S131072_S_d0 h_S_)
    (maximumf (Host.reduceAdd (uitofp .f32 inc) (constant S_ .f32 0x00000000#32) reducesTo_S131072_S_d0 h_S_) (constant S_ .f32 0x3F800000#32))

end Stages

-- the pure operations stay folded while a stretch's chain of results is opened: a reduction's body walks
-- every element of its operand, which the comparison must never enter
attribute [local irreducible] Host.reduce Host.reduceAdd Host.divf extractStridedSlice shapeCast broadcastInDim select cmpi cmpf andi ori noti subf mulf maximumf uitofp constant constantI in
set_option maxRecDepth 16384 in
set_option maxHeartbeats 2000000 in
theorem A_v7 (X : Valuation τ sig (Elt F)) :
    after opsA X (main_v7 : DevRef τ sig) = Cert.RefTerm.dist (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem A_v13 (X : Valuation τ sig (Elt F)) :
    after opsA X (main_v13 : DevRef τ sig) = Cert.RefTerm.same (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem A_v14 (X : Valuation τ sig (Elt F)) :
    after opsA X (main_v14 : DevRef τ sig) = Cert.RefTerm.anySame (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B1_v16 (X : Valuation τ sig (Elt F)) :
    after opsB1 X (main_v16 : DevRef τ sig) = maxOf (X (main_v7 : DevRef τ sig)) (X (main_v13 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B2_v17 (X : Valuation τ sig (Elt F)) :
    after opsB2 X (main_v17 : DevRef τ sig) = alphaOf (X (main_v14 : DevRef τ sig)) (X (main_v16 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B3_v19 (X : Valuation τ sig (Elt F)) :
    after opsB3 X (main_v19 : DevRef τ sig) = sameSumOf (X (main_v7 : DevRef τ sig)) (X (main_v13 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B4_v22 (X : Valuation τ sig (Elt F)) :
    after opsB4 X (main_v22 : DevRef τ sig) = marginOf (X (main_v7 : DevRef τ sig)) (X (main_v17 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C1_v26 (X : Valuation τ sig (Elt F)) :
    after opsC1 X (main_v26 : DevRef τ sig) = negOf (X (main_v13 : DevRef τ sig)) (X (main_v22 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C2_v28 (X : Valuation τ sig (Elt F)) :
    after opsC2 X (main_v28 : DevRef τ sig) = negSumOf (X (main_v22 : DevRef τ sig)) (X (main_v26 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C3_v29 (X : Valuation τ sig (Elt F)) :
    after opsC3 X (main_v29 : DevRef τ sig) = anyOf (X (main_v26 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C4_v30 (X : Valuation τ sig (Elt F)) :
    after opsC4 X (main_v30 : DevRef τ sig) = ori (X (main_v14 : DevRef τ sig)) (X (main_v29 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C5_v31 (X : Valuation τ sig (Elt F)) :
    after opsC5 X (main_v31 : DevRef τ sig) = subf (X (main_v19 : DevRef τ sig)) (X (main_v28 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem D_v37 (X : Valuation τ sig (Elt F)) :
    after opsD X (main_v37 : DevRef τ sig) = resultOf (X (main_v30 : DevRef τ sig)) (X (main_v31 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem A_arg0 (X : Valuation τ sig (Elt F)) :
    after opsA X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem A_arg1 (X : Valuation τ sig (Elt F)) :
    after opsA X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B1_v7 (X : Valuation τ sig (Elt F)) :
    after opsB1 X (main_v7 : DevRef τ sig) = (X (main_v7 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B1_v13 (X : Valuation τ sig (Elt F)) :
    after opsB1 X (main_v13 : DevRef τ sig) = (X (main_v13 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B1_v14 (X : Valuation τ sig (Elt F)) :
    after opsB1 X (main_v14 : DevRef τ sig) = (X (main_v14 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B1_arg0 (X : Valuation τ sig (Elt F)) :
    after opsB1 X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B1_arg1 (X : Valuation τ sig (Elt F)) :
    after opsB1 X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B2_v7 (X : Valuation τ sig (Elt F)) :
    after opsB2 X (main_v7 : DevRef τ sig) = (X (main_v7 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B2_v13 (X : Valuation τ sig (Elt F)) :
    after opsB2 X (main_v13 : DevRef τ sig) = (X (main_v13 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B2_v14 (X : Valuation τ sig (Elt F)) :
    after opsB2 X (main_v14 : DevRef τ sig) = (X (main_v14 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B2_arg0 (X : Valuation τ sig (Elt F)) :
    after opsB2 X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B2_arg1 (X : Valuation τ sig (Elt F)) :
    after opsB2 X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B3_v7 (X : Valuation τ sig (Elt F)) :
    after opsB3 X (main_v7 : DevRef τ sig) = (X (main_v7 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B3_v13 (X : Valuation τ sig (Elt F)) :
    after opsB3 X (main_v13 : DevRef τ sig) = (X (main_v13 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B3_v14 (X : Valuation τ sig (Elt F)) :
    after opsB3 X (main_v14 : DevRef τ sig) = (X (main_v14 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B3_v17 (X : Valuation τ sig (Elt F)) :
    after opsB3 X (main_v17 : DevRef τ sig) = (X (main_v17 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B3_arg0 (X : Valuation τ sig (Elt F)) :
    after opsB3 X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B3_arg1 (X : Valuation τ sig (Elt F)) :
    after opsB3 X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B4_v13 (X : Valuation τ sig (Elt F)) :
    after opsB4 X (main_v13 : DevRef τ sig) = (X (main_v13 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B4_v14 (X : Valuation τ sig (Elt F)) :
    after opsB4 X (main_v14 : DevRef τ sig) = (X (main_v14 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B4_v19 (X : Valuation τ sig (Elt F)) :
    after opsB4 X (main_v19 : DevRef τ sig) = (X (main_v19 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B4_arg0 (X : Valuation τ sig (Elt F)) :
    after opsB4 X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem B4_arg1 (X : Valuation τ sig (Elt F)) :
    after opsB4 X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C1_v14 (X : Valuation τ sig (Elt F)) :
    after opsC1 X (main_v14 : DevRef τ sig) = (X (main_v14 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C1_v19 (X : Valuation τ sig (Elt F)) :
    after opsC1 X (main_v19 : DevRef τ sig) = (X (main_v19 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C1_v22 (X : Valuation τ sig (Elt F)) :
    after opsC1 X (main_v22 : DevRef τ sig) = (X (main_v22 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C1_arg0 (X : Valuation τ sig (Elt F)) :
    after opsC1 X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C1_arg1 (X : Valuation τ sig (Elt F)) :
    after opsC1 X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C2_v14 (X : Valuation τ sig (Elt F)) :
    after opsC2 X (main_v14 : DevRef τ sig) = (X (main_v14 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C2_v19 (X : Valuation τ sig (Elt F)) :
    after opsC2 X (main_v19 : DevRef τ sig) = (X (main_v19 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C2_v26 (X : Valuation τ sig (Elt F)) :
    after opsC2 X (main_v26 : DevRef τ sig) = (X (main_v26 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C2_arg0 (X : Valuation τ sig (Elt F)) :
    after opsC2 X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C2_arg1 (X : Valuation τ sig (Elt F)) :
    after opsC2 X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C3_v14 (X : Valuation τ sig (Elt F)) :
    after opsC3 X (main_v14 : DevRef τ sig) = (X (main_v14 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C3_v19 (X : Valuation τ sig (Elt F)) :
    after opsC3 X (main_v19 : DevRef τ sig) = (X (main_v19 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C3_v28 (X : Valuation τ sig (Elt F)) :
    after opsC3 X (main_v28 : DevRef τ sig) = (X (main_v28 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C3_arg0 (X : Valuation τ sig (Elt F)) :
    after opsC3 X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C3_arg1 (X : Valuation τ sig (Elt F)) :
    after opsC3 X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C4_v19 (X : Valuation τ sig (Elt F)) :
    after opsC4 X (main_v19 : DevRef τ sig) = (X (main_v19 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C4_v28 (X : Valuation τ sig (Elt F)) :
    after opsC4 X (main_v28 : DevRef τ sig) = (X (main_v28 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C4_arg0 (X : Valuation τ sig (Elt F)) :
    after opsC4 X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C4_arg1 (X : Valuation τ sig (Elt F)) :
    after opsC4 X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C5_v30 (X : Valuation τ sig (Elt F)) :
    after opsC5 X (main_v30 : DevRef τ sig) = (X (main_v30 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C5_arg0 (X : Valuation τ sig (Elt F)) :
    after opsC5 X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem C5_arg1 (X : Valuation τ sig (Elt F)) :
    after opsC5 X (main_arg1 : DevRef τ sig) = (X (main_arg1 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem D_arg0 (X : Valuation τ sig (Elt F)) :
    after opsD X (main_arg0 : DevRef τ sig) = (X (main_arg0 : DevRef τ sig)) := by
  simp only [after_cons, after_nil]
  rfl

attribute [local irreducible] Host.reduce Host.reduceAdd Host.divf extractStridedSlice shapeCast broadcastInDim select cmpi cmpf andi ori noti subf mulf maximumf uitofp constant constantI in
set_option maxRecDepth 16384 in
set_option maxHeartbeats 2000000 in
theorem D_arg1 (X : Valuation τ sig (Elt F)) :
    after opsD X (main_arg1 : DevRef τ sig) = (X (main_arg1 : DevRef τ sig)) := by
  simp only [after_cons, after_nil]
  rfl

end Cert.RefStretch

end
-- ==== Proof.RefRun.lean ====
/-
  The reference program's run: every weakly fair execution ends with the result buffer at the staged function
  of the two argument arrays (the stretches composed) and the arguments unchanged.
-/
import proofs.«114061_j22462678958338_2_alg».proof.Proof.RefStretch

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

open Cert.RefOps Cert.RefStretch

attribute [local irreducible] Host.reduce Host.reduceAdd Host.divf extractStridedSlice shapeCast broadcastInDim select cmpi cmpf andi ori noti subf mulf maximumf uitofp constant constantI in
set_option maxRecDepth 16384 in
set_option maxHeartbeats 2000000 in
/-- The staged function of the arguments is the stretches' composition. -/
theorem result_unfold (E : (⟨S8x131072x128, .f32⟩ : BufTy).Contents (Elt F)) (T : (⟨S8x131072, .i32⟩ : BufTy).Contents (Elt F)) :
    Cert.RefTerm.result E T
      = resultOf (ori (Cert.RefTerm.anySame T) (anyOf (negOf (Cert.RefTerm.same T) (marginOf (Cert.RefTerm.dist E) (alphaOf (Cert.RefTerm.anySame T) (maxOf (Cert.RefTerm.dist E) (Cert.RefTerm.same T)))))))
          (subf (sameSumOf (Cert.RefTerm.dist E) (Cert.RefTerm.same T)) (negSumOf (marginOf (Cert.RefTerm.dist E) (alphaOf (Cert.RefTerm.anySame T) (maxOf (Cert.RefTerm.dist E) (Cert.RefTerm.same T)))) (negOf (Cert.RefTerm.same T) (marginOf (Cert.RefTerm.dist E) (alphaOf (Cert.RefTerm.anySame T) (maxOf (Cert.RefTerm.dist E) (Cert.RefTerm.same T))))))) := rfl

/-- The fold at the result buffer is the staged function of the arguments' contents. -/
theorem result_eq (V : Valuation τ sig (Elt F)) :
    after ops V (main_v37 : DevRef τ sig)
      = Cert.RefTerm.result (V (main_arg0 : DevRef τ sig)) (V (main_arg1 : DevRef τ sig)) := by
  rw [ops_split, after_append, after_append, after_append, after_append, after_append, after_append, after_append, after_append, after_append, after_append,
    D_v37, C5_v31, C5_v30, C4_v30, C4_v19, C4_v28, C3_v29, C3_v14, C3_v19, C3_v28, C2_v28, C2_v14, C2_v19, C2_v26,
    C1_v26, C1_v14, C1_v19, C1_v22, B4_v22, B4_v13, B4_v14, B4_v19, B3_v19, B3_v7, B3_v13, B3_v14, B3_v17,
    B2_v17, B2_v7, B2_v13, B2_v14, B1_v16, B1_v7, B1_v13, B1_v14, A_v7, A_v13, A_v14, result_unfold]

theorem arg0_eq (V : Valuation τ sig (Elt F)) :
    after ops V (main_arg0 : DevRef τ sig) = V (main_arg0 : DevRef τ sig) := by
  rw [ops_split, after_append, after_append, after_append, after_append, after_append, after_append, after_append, after_append, after_append, after_append, D_arg0, C5_arg0, C4_arg0, C3_arg0, C2_arg0, C1_arg0, B4_arg0, B3_arg0, B2_arg0, B1_arg0, A_arg0]

theorem arg1_eq (V : Valuation τ sig (Elt F)) :
    after ops V (main_arg1 : DevRef τ sig) = V (main_arg1 : DevRef τ sig) := by
  rw [ops_split, after_append, after_append, after_append, after_append, after_append, after_append, after_append, after_append, after_append, after_append, D_arg1, C5_arg1, C4_arg1, C3_arg1, C2_arg1, C1_arg1, B4_arg1, B3_arg1, B2_arg1, B1_arg1, A_arg1]

/-- Every weakly fair execution of the reference terminates with its result at the staged function of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
          = Cert.RefTerm.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v37).trans (result_eq _), (h c main_arg0).trans (arg0_eq _), (h c main_arg1).trans (arg1_eq _)⟩)
    (run_seq scopedRefs_eq scopedSems_eq defs main (fun _ => ops) main_eq (fun _ => ops_sub) m ρ)

end Cert.RefRun

end
-- ==== Proof.RefRead.lean ====
/-
  The reference program read one sample at a time: each of its stages, taken at the coordinates of one
  sample (and of one of its seven rows), is the specification's quantity for that sample; the two sums
  over all samples are the specification's sums; and so its result is the specification's total.
-/
import proofs.«114061_j22462678958338_2_alg».proof.Proof.RefTerm
import proofs.«114061_j22462678958338_2_alg».proof.Proof.Spec
import Idealize.ShloMosaic.Lib.Pipeline.Value
import Idealize.ShloMosaic.Lib.ValueIdx
import Idealize.ShloMosaic.PureOps.Ideal.Laws

noncomputable section

open scoped BigOperators

namespace Cert.RefRead

open Cert.ReferenceIdeal Cert.ReferenceIdeal.Gen Idealize.ShloMosaic Idealize.ShloMosaic.ValueIdx

/-! ### Reading the layout operations at one sample's coordinates -/

section Layout

variable {α : Type}

/-- A value per sample, spread over the seven rows, read at row `k` of sample `b`: the value at `b`. -/
theorem bcastRows_apply (x : S131072.Idx → α) (k : Fin 7) (b : Fin 131072) :
    broadcastInDim S7x131072 ![0, 1] bcast_S1x131072_S7x131072_0_1
      (broadcastInDim S1x131072 ![1] bcast_S131072_S1x131072_1 x) (ix2 k b) = x (ix1 b) := by
  refine (broadcastInDim_apply _ bcast_S1x131072_S7x131072_0_1 _ (ix2 k b) (ix2 (0 : Fin 1) b) (fun a => match a with
    | ⟨0, _⟩ => by show 0 = if (1 : Nat) = 1 then 0 else k.val; rw [if_pos rfl]
    | ⟨1, _⟩ => by show b.val = if (131072 : Nat) = 1 then 0 else b.val; rw [if_neg (by decide)])).trans ?_
  exact broadcastInDim_apply _ bcast_S131072_S1x131072_1 x (ix2 (0 : Fin 1) b) (ix1 b) (fun a => match a with
    | ⟨0, _⟩ => by show b.val = if (131072 : Nat) = 1 then 0 else b.val; rw [if_neg (by decide)])

/-- A constant spread over rows and samples reads the constant. -/
theorem bcast7_apply (x : S_.Idx → α) (k : Fin 7) (b : Fin 131072) :
    broadcastInDim S7x131072 ![] bcast_S_S7x131072 x (ix2 k b) = x ix0 :=
  broadcastInDim_apply _ bcast_S_S7x131072 x (ix2 k b) ix0 (fun a => a.elim0)

theorem bcast1_apply (x : S_.Idx → α) (b : Fin 131072) :
    broadcastInDim S131072 ![] bcast_S_S131072 x (ix1 b) = x ix0 :=
  broadcastInDim_apply _ bcast_S_S131072 x (ix1 b) ix0 (fun a => a.elim0)

end Layout

/-! ### The pointwise operations at an index, at the ideal instance -/

section Pointwise

variable {s : Shape} {w : Nat} {φ : FTy}

theorem andi_apply (x y : IVec s w) (i : s.Idx) : andi x y i = IntOp.andi (x i) (y i) := rfl
theorem ori_apply (x y : IVec s w) (i : s.Idx) : ori x y i = IntOp.ori (x i) (y i) := rfl
theorem noti_apply (x : IVec s w) (i : s.Idx) : noti x i = ~~~(x i) := rfl
theorem cmpfIdeal_apply (p : CmpFPredicate) (a b : FVec Ideal s φ) (i : s.Idx) :
    cmpf p a b i = Ideal.cmp p (a i) (b i) := rfl
theorem hostDivf_apply (a b : FVec Ideal s φ) (i : s.Idx) : Host.divf a b i = Ideal.div (a i) (b i) := rfl
theorem uitofp_apply (x : IVec s w) (i : s.Idx) :
    uitofp (F := Ideal) φ x i = ((((x i).toNat : ℝ)) : EReal) := rfl

end Pointwise

/-! ### Reading the reductions at one sample's coordinates -/

/-- The sum over the 128 lanes, read at row `k` of sample `b`. -/
theorem reduceLanes_apply (x : FVec Ideal S7x131072x128 .f32) (init : FVec Ideal S_ .f32) (k : Fin 7) (b : Fin 131072) :
    Host.reduceAdd x init reducesTo_S7x131072x128_S7x131072_d2 h_S_ (ix2 k b)
      = init (Shape.Idx.first h_S_) + ∑ l : Fin 128, x (ix3 k b l) := by
  simp only [Host.reduceAdd, Ideal.hostReduceAdd_def]
  rw [Ideal.hostReduceAdd_single reducesTo_S7x131072x128_S7x131072_d2 (by decide)]
  refine congrArg (_ + ·) (Finset.sum_congr rfl fun l _ => ?_)
  exact congrArg x (funext fun a => Fin.ext (by match a with | ⟨0, _⟩ => rfl | ⟨1, _⟩ => rfl | ⟨2, _⟩ => rfl))

/-- The sum over the seven rows, read at sample `b`. -/
theorem reduceRows_apply (x : FVec Ideal S7x131072 .f32) (init : FVec Ideal S_ .f32) (b : Fin 131072) :
    Host.reduceAdd x init reducesTo_S7x131072_S131072_d0 h_S_ (ix1 b)
      = init (Shape.Idx.first h_S_) + ∑ k : Fin 7, x (ix2 k b) := by
  simp only [Host.reduceAdd, Ideal.hostReduceAdd_def]
  rw [Ideal.hostReduceAdd_single reducesTo_S7x131072_S131072_d0 (by decide)]
  refine congrArg (_ + ·) (Finset.sum_congr rfl fun k _ => ?_)
  exact congrArg x (funext fun a => Fin.ext (by match a with | ⟨0, _⟩ => rfl | ⟨1, _⟩ => rfl))

/-- A fold over the seven rows, read at sample `b`. -/
theorem foldRows_apply {α : Type} (f : α → α → α) [Std.Commutative f] [Std.Associative f] (x : S7x131072.Idx → α)
    (init : S_.Idx → α) (b : Fin 131072) :
    Host.reduce f x init reducesTo_S7x131072_S131072_d0 h_S_ (ix1 b)
      = (Finset.univ : Finset (Fin 7)).fold f (init (Shape.Idx.first h_S_)) (fun k => x (ix2 k b)) := by
  rw [Host.reduce_eq_fold_single f x init reducesTo_S7x131072_S131072_d0 (by decide) h_S_ (ix1 b)]
  refine congrArg (Finset.fold f _ · Finset.univ) (funext fun k => ?_)
  exact congrArg x (funext fun a => Fin.ext (by match a with | ⟨0, _⟩ => rfl | ⟨1, _⟩ => rfl))

/-- The samples' indices are the numbers below 131072. -/
def sampleEquiv : Fin 131072 ≃ S131072.Idx where
  toFun b := ix1 b
  invFun j := j 0
  left_inv _ := rfl
  right_inv j := (eq_ix1 j).symm

/-- The sum over all samples. -/
theorem reduceAll_apply (x : FVec Ideal S131072 .f32) (init : FVec Ideal S_ .f32) (i : S_.Idx) :
    Host.reduceAdd x init reducesTo_S131072_S_d0 h_S_ i
      = init (Shape.Idx.first h_S_) + ∑ b : Fin 131072, x (ix1 b) := by
  simp only [Host.reduceAdd, Ideal.hostReduceAdd_def]
  rw [Ideal.hostReduceAdd_total reducesTo_S131072_S_d0 (fun a => a.elim0) x _ i]
  exact congrArg (_ + ·) (Equiv.sum_comp sampleEquiv x).symm

variable (E : (⟨S8x131072x128, .f32⟩ : BufTy).Contents (Elt Ideal)) (T : (⟨S8x131072, .i32⟩ : BufTy).Contents (Elt Ideal))

/-- The anchor stage at row `k`, sample `b`, lane `l` is the argument at row 0 of that sample and lane. -/
theorem anchor_apply (k : Fin 7) (b : Fin 131072) (l : Fin 128) :
    RefTerm.anchor (F := Ideal) E (ix3 k b l) = E (ix3 (0 : Fin 8) b l) := by
  unfold RefTerm.anchor
  refine (broadcastInDim_apply _ bcast_S1x131072x128_S7x131072x128_0_1_2 _ (ix3 k b l) (ix3 (0 : Fin 1) b l) (fun a => match a with
    | ⟨0, _⟩ => by show 0 = if (1 : Nat) = 1 then 0 else k.val; rw [if_pos rfl]
    | ⟨1, _⟩ => by show b.val = if (131072 : Nat) = 1 then 0 else b.val; rw [if_neg (by decide)]
    | ⟨2, _⟩ => by show l.val = if (128 : Nat) = 1 then 0 else l.val; rw [if_neg (by decide)])).trans ?_
  refine (broadcastInDim_apply _ bcast_S131072x128_S1x131072x128_1_2 _ (ix3 (0 : Fin 1) b l) (ix2 b l) (fun a => match a with
    | ⟨0, _⟩ => by show b.val = if (131072 : Nat) = 1 then 0 else b.val; rw [if_neg (by decide)]
    | ⟨1, _⟩ => by show l.val = if (128 : Nat) = 1 then 0 else l.val; rw [if_neg (by decide)])).trans ?_
  refine (shapeCast_apply _ shapeCasts_S1x131072x128_S131072x128 (ix2 b l) (ix3 (0 : Fin 1) b l)
    (by rewrite [Shape.rowMajor_val_three, Shape.rowMajor_val_two]
        show (0 * 131072 + b.val) * 128 + l.val = b.val * 128 + l.val
        omega)).trans ?_
  exact extractStridedSlice_apply ![0, 0, 0] E slices_S8x131072x128_S1x131072x128_0_0_0 (ix3 (0 : Fin 1) b l) (ix3 (0 : Fin 8) b l) (fun a => match a with
    | ⟨0, _⟩ => by show 0 = 0 + 0; rfl
    | ⟨1, _⟩ => by show b.val = 0 + b.val; omega
    | ⟨2, _⟩ => by show l.val = 0 + l.val; omega)

/-- The other rows' stage at row `k` is the argument at row `k + 1`. -/
theorem others_apply (k : Fin 7) (b : Fin 131072) (l : Fin 128) :
    RefTerm.others (F := Ideal) E (ix3 k b l) = E (ix3 k.succ b l) := by
  unfold RefTerm.others
  exact extractStridedSlice_apply ![1, 0, 0] E slices_S8x131072x128_S7x131072x128_1_0_0 (ix3 k b l) (ix3 k.succ b l) (fun a => match a with
    | ⟨0, _⟩ => by show k.val + 1 = 1 + k.val; omega
    | ⟨1, _⟩ => by show b.val = 0 + b.val; omega
    | ⟨2, _⟩ => by show l.val = 0 + l.val; omega)

/-- The squared distances, read at row `k` of sample `b`. -/
theorem dist_apply (k : Fin 7) (b : Fin 131072) :
    RefTerm.dist (F := Ideal) E (ix2 k b) = Spec.dist (Spec.rowsAt E b) k := by
  unfold RefTerm.dist Spec.dist
  refine (reduceLanes_apply _ _ k b).trans ?_
  refine congrArg (_ + ·) (Finset.sum_congr rfl fun l _ => ?_)
  show (RefTerm.anchor E (ix3 k b l) - RefTerm.others E (ix3 k b l)) * (RefTerm.anchor E (ix3 k b l) - RefTerm.others E (ix3 k b l)) = _
  rw [anchor_apply, others_apply]

/-- The label comparison, read at row `k` of sample `b`. -/
theorem same_apply (k : Fin 7) (b : Fin 131072) :
    RefTerm.same (F := Ideal) T (ix2 k b) = Spec.same (Spec.labelsAt T b) k := by
  unfold RefTerm.same Spec.same
  show IntOp.cmpi .eq (extractStridedSlice S7x131072 ![1, 0] T slices_S8x131072_S7x131072_1_0 (ix2 k b)) _ = _
  refine congrArg₂ (IntOp.cmpi .eq) ?_ ?_
  · exact extractStridedSlice_apply ![1, 0] T slices_S8x131072_S7x131072_1_0 (ix2 k b) (ix2 k.succ b) (fun a => match a with
      | ⟨0, _⟩ => by show k.val + 1 = 1 + k.val; omega
      | ⟨1, _⟩ => by show b.val = 0 + b.val; omega)
  · refine (bcastRows_apply _ k b).trans ?_
    refine (shapeCast_apply _ shapeCasts_S1x131072_S131072 (ix1 b) (ix2 (0 : Fin 1) b)
      (by rewrite [Shape.rowMajor_val_two, Shape.rowMajor_val_one]
          show 0 * 131072 + b.val = b.val
          omega)).trans ?_
    exact extractStridedSlice_apply ![0, 0] T slices_S8x131072_S1x131072_0_0 (ix2 (0 : Fin 1) b) (ix2 (0 : Fin 8) b) (fun a => match a with
      | ⟨0, _⟩ => by show 0 = 0 + 0; rfl
      | ⟨1, _⟩ => by show b.val = 0 + b.val; omega)

/-- A spread constant reads the constant's word. -/
theorem splat7_apply (w : BitVec 32) (k : Fin 7) (b : Fin 131072) :
    RefTerm.splat7 (F := Ideal) w (ix2 k b) = Ideal.ofBits .f32 w := by
  unfold RefTerm.splat7
  exact bcast7_apply _ k b

theorem splat1_apply (w : BitVec 32) (b : Fin 131072) :
    RefTerm.splat1 (F := Ideal) w (ix1 b) = Ideal.ofBits .f32 w := by
  unfold RefTerm.splat1
  exact bcast1_apply _ b

/-! ### The stages at one sample -/

theorem anySame_apply (b : Fin 131072) :
    RefTerm.anySame (F := Ideal) T (ix1 b) = Spec.anySame (Spec.labelsAt T b) := by
  unfold RefTerm.anySame Spec.anySame
  refine (foldRows_apply IntOp.ori _ _ b).trans ?_
  exact congrArg (Finset.fold IntOp.ori 0#1 · Finset.univ) (funext fun k => same_apply T k b)

theorem maxSame_apply (b : Fin 131072) :
    RefTerm.maxSame (F := Ideal) E T (ix1 b) = Spec.maxSame (Spec.rowsAt E b) (Spec.labelsAt T b) := by
  unfold RefTerm.maxSame Spec.maxSame
  refine (foldRows_apply FloatOps.maximumf _ _ b).trans ?_
  refine congrArg (Finset.fold max Spec.negInf · Finset.univ) (funext fun k => ?_)
  show Scalar.select (RefTerm.same T (ix2 k b)) (RefTerm.dist E (ix2 k b)) (RefTerm.splat7 _ (ix2 k b)) = _
  rw [same_apply, dist_apply, splat7_apply]

theorem alpha_apply (b : Fin 131072) :
    RefTerm.alpha (F := Ideal) E T (ix1 b) = Spec.alpha (Spec.rowsAt E b) (Spec.labelsAt T b) := by
  unfold RefTerm.alpha Spec.alpha
  show Scalar.select (RefTerm.anySame T (ix1 b)) (RefTerm.maxSame E T (ix1 b)) (RefTerm.splat1 _ (ix1 b)) = _
  rw [anySame_apply, maxSame_apply, splat1_apply]

theorem sameSum_apply (b : Fin 131072) :
    RefTerm.sameSum (F := Ideal) E T (ix1 b) = Spec.sameSum (Spec.rowsAt E b) (Spec.labelsAt T b) := by
  unfold RefTerm.sameSum Spec.sameSum
  refine (reduceRows_apply _ _ b).trans ?_
  refine congrArg (_ + ·) (Finset.sum_congr rfl fun k _ => ?_)
  show Scalar.select (RefTerm.same T (ix2 k b)) (RefTerm.dist E (ix2 k b)) (RefTerm.splat7 _ (ix2 k b)) = _
  rw [same_apply, dist_apply, splat7_apply]

theorem margin_apply (k : Fin 7) (b : Fin 131072) :
    RefTerm.margin (F := Ideal) E T (ix2 k b) = Spec.margin (Spec.rowsAt E b) (Spec.labelsAt T b) k := by
  unfold RefTerm.margin Spec.margin
  rw [subf_apply, dist_apply, bcastRows_apply, alpha_apply]

theorem neg_apply (k : Fin 7) (b : Fin 131072) :
    RefTerm.neg (F := Ideal) E T (ix2 k b) = Spec.neg (Spec.rowsAt E b) (Spec.labelsAt T b) k := by
  unfold RefTerm.neg Spec.neg
  rw [andi_apply, noti_apply, cmpfIdeal_apply, same_apply, margin_apply, splat7_apply]

theorem negSum_apply (b : Fin 131072) :
    RefTerm.negSum (F := Ideal) E T (ix1 b) = Spec.negSum (Spec.rowsAt E b) (Spec.labelsAt T b) := by
  unfold RefTerm.negSum Spec.negSum
  refine (reduceRows_apply _ _ b).trans ?_
  refine congrArg (_ + ·) (Finset.sum_congr rfl fun k _ => ?_)
  show Scalar.select (RefTerm.neg E T (ix2 k b)) (RefTerm.margin E T (ix2 k b)) (RefTerm.splat7 _ (ix2 k b)) = _
  rw [neg_apply, margin_apply, splat7_apply]

theorem anyNeg_apply (b : Fin 131072) :
    RefTerm.anyNeg (F := Ideal) E T (ix1 b) = Spec.anyNeg (Spec.rowsAt E b) (Spec.labelsAt T b) := by
  unfold RefTerm.anyNeg Spec.anyNeg
  refine (foldRows_apply IntOp.ori _ _ b).trans ?_
  exact congrArg (Finset.fold IntOp.ori 0#1 · Finset.univ) (funext fun k => neg_apply E T k b)

theorem incl_apply (b : Fin 131072) :
    RefTerm.incl (F := Ideal) E T (ix1 b) = Spec.incl (Spec.rowsAt E b) (Spec.labelsAt T b) := by
  unfold RefTerm.incl Spec.incl
  rw [ori_apply, anySame_apply, anyNeg_apply]

theorem loss_apply (b : Fin 131072) :
    RefTerm.loss (F := Ideal) E T (ix1 b) = Spec.loss (Spec.rowsAt E b) (Spec.labelsAt T b) := by
  unfold RefTerm.loss Spec.loss
  rw [subf_apply, sameSum_apply, negSum_apply]

/-- The counted loss of sample `b`. -/
theorem contrib_apply (b : Fin 131072) :
    select (RefTerm.incl (F := Ideal) E T) (RefTerm.loss E T) (RefTerm.splat1 0x00000000#32) (ix1 b)
      = Spec.contrib (Spec.rowsAt E b) (Spec.labelsAt T b) := by
  unfold Spec.contrib
  show Scalar.select (RefTerm.incl E T (ix1 b)) (RefTerm.loss E T (ix1 b)) (RefTerm.splat1 _ (ix1 b)) = _
  rw [incl_apply, loss_apply, splat1_apply]

/-- Whether sample `b` counts, as a number. -/
theorem count_apply (b : Fin 131072) :
    uitofp (F := Ideal) .f32 (RefTerm.incl (F := Ideal) E T) (ix1 b)
      = Spec.count (Spec.rowsAt E b) (Spec.labelsAt T b) := by
  unfold Spec.count
  rw [uitofp_apply, incl_apply]

/-! ### The sums over all samples, and the result -/

theorem lossSum_apply (i : S_.Idx) :
    RefTerm.lossSum (F := Ideal) E T i = Spec.zero + Spec.lossSum E T := by
  unfold RefTerm.lossSum Spec.lossSum
  refine (reduceAll_apply _ _ i).trans ?_
  exact congrArg (_ + ·) (Finset.sum_congr rfl fun b _ => contrib_apply E T b)

theorem countSum_apply (i : S_.Idx) :
    RefTerm.countSum (F := Ideal) E T i = Spec.zero + Spec.countSum E T := by
  unfold RefTerm.countSum Spec.countSum
  refine (reduceAll_apply _ _ i).trans ?_
  exact congrArg (_ + ·) (Finset.sum_congr rfl fun b _ => count_apply E T b)

/-- The reference's result is the specification's total. -/
theorem result_eq :
    RefTerm.result (F := Ideal) E T = fun _ => Spec.total E T := by
  funext i
  unfold RefTerm.result Spec.total
  rw [hostDivf_apply, maximumf_apply, constant_apply, lossSum_apply, countSum_apply]

end Cert.RefRead

end
-- ==== Proof.lean ====
/-
  The proof of `Cert.Claim`.
  Both programs compute, over 131072 samples of eight 128-vectors with class labels, the mean over the
  counted samples of (sum of same-class squared distances to the anchor) − (sum of the negative margins of
  the closer different-class rows), a sample counting when it has a same-class row or such a margin.
  The kernel streams tiles of 2048 samples over a 2 × 32 grid, keeps a loss sum and a count per core in
  two accumulators (reset at a core's first tile, written out after its last), and the host adds the two
  cores' sums and divides. The reference does the same arithmetic on the whole arrays.
  At the ideal values the two differ only in form: the distance is taken as (row − anchor)² against
  (anchor − row)², equal on every pair of extended reals; "some row …" is a sum of 0/1 flags compared with
  zero against a fold of "or"; "not" is exclusive-or with 1 against complement; the count is read through
  a 32-bit signed widening against an unsigned one; and the sums are grouped by tile and by core, which
  changes nothing since addition of extended reals is commutative and associative. So the claim holds for
  all inputs and the precondition is not used.
  The three frames: the two kernels' are generated; the reference's is its run with the result dropped.
  The ideal pass rewrote nothing, so `preserves` is `True`.
-/
import proofs.«114061_j22462678958338_2_alg».proof.Defs
import proofs.«114061_j22462678958338_2_alg».proof.Proof.Gen.Kernel
import proofs.«114061_j22462678958338_2_alg».proof.Proof.Gen.Kernel.Skeleton
import proofs.«114061_j22462678958338_2_alg».proof.Proof.Gen.Kernel.Launch
import proofs.«114061_j22462678958338_2_alg».proof.Proof.Gen.Kernel.Points
import proofs.«114061_j22462678958338_2_alg».proof.Proof.Gen.Kernel.Frame
import proofs.«114061_j22462678958338_2_alg».proof.Proof.Gen.KernelIdeal
import proofs.«114061_j22462678958338_2_alg».proof.Proof.Gen.KernelIdeal.Skeleton
import proofs.«114061_j22462678958338_2_alg».proof.Proof.Gen.KernelIdeal.Launch
import proofs.«114061_j22462678958338_2_alg».proof.Proof.Gen.KernelIdeal.Points
import proofs.«114061_j22462678958338_2_alg».proof.Proof.Gen.KernelIdeal.Frame
import proofs.«114061_j22462678958338_2_alg».proof.Proof.Gen.ReferenceIdeal
import proofs.«114061_j22462678958338_2_alg».proof.Proof.Gen.Pre_finite_inputs
import proofs.«114061_j22462678958338_2_alg».proof.Proof.KTotal
import proofs.«114061_j22462678958338_2_alg».proof.Proof.RefRun
import proofs.«114061_j22462678958338_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- Both idealized programs end with their result at the specification's value of argument arrays that
    agree: the kernel's by its frame run read through the accumulators and the host lines, the reference's
    by its straight-line run read stage by stage. -/
theorem algebraic : Cert.algebraic_KernelIdeal_ReferenceIdeal := by
  intro m ρ m' ρ' _ hagree
  refine ⟨fun c => fun _ => Cert.Spec.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KTotal.run m ρ, ?_⟩
  refine (θ_run Cert.ReferenceIdeal.defs _ _).mono (fun _ h c => ⟨(h c).1.trans ?_, (h c).2⟩) (Cert.RefRun.run (F := Ideal) m' ρ')
  rw [(hagree c).1, (hagree c).2]
  exact Cert.RefRead.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
